-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x262144 : Shape := ⟨2, ![96, 262144]⟩
abbrev S_ : Shape := ⟨0, ![]⟩
abbrev S4096x128 : Shape := ⟨2, ![4096, 128]⟩
abbrev S96x64 : Shape := ⟨2, ![96, 64]⟩
abbrev S48x4096 : Shape := ⟨2, ![48, 4096]⟩
abbrev S48x64 : Shape := ⟨2, ![48, 64]⟩
abbrev S1x64 : Shape := ⟨2, ![1, 64]⟩
abbrev S48x128 : Shape := ⟨2, ![48, 128]⟩
abbrev S48x1 : Shape := ⟨2, ![48, 1]⟩
abbrev S96 : Shape := ⟨1, ![96]⟩
abbrev S96x1 : Shape := ⟨2, ![96, 1]⟩

abbrev nBuf : Space → Nat
  | .hbm => 32
  | .vmem => 11
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S96x262144, .f32⟩
  | .hbm, ⟨3, _⟩ => ⟨S96x262144, .f32⟩
  | .hbm, ⟨4, _⟩ => ⟨S_, .bf16⟩
  | .hbm, ⟨5, _⟩ => ⟨S4096x128, .bf16⟩
  | .hbm, ⟨6, _⟩ => ⟨S96x64, .f32⟩
  | .hbm, ⟨7, _⟩ => ⟨S96x64, .f32⟩
  | .hbm, ⟨8, _⟩ => ⟨S_, .f32⟩
  | .hbm, ⟨9, _⟩ => ⟨S96, .f32⟩
  | .hbm, ⟨10, _⟩ => ⟨S96x1, .f32⟩
  | .hbm, ⟨11, _⟩ => ⟨S_, .f32⟩
  | .hbm, ⟨12, _⟩ => ⟨S_, .f32⟩
  | .hbm, ⟨13, _⟩ => ⟨S96x1, .f32⟩
  | .hbm, ⟨14, _⟩ => ⟨S96x1, .f32⟩
  | .hbm, ⟨15, _⟩ => ⟨S96x64, .f32⟩
  | .hbm, ⟨16, _⟩ => ⟨S96x64, .f32⟩
  | .hbm, ⟨17, _⟩ => ⟨S_, .f32⟩
  | .hbm, ⟨18, _⟩ => ⟨S96, .f32⟩
  | .hbm, ⟨19, _⟩ => ⟨S96x1, .f32⟩
  | .hbm, ⟨20, _⟩ => ⟨S_, .f32⟩
  | .hbm, ⟨21, _⟩ => ⟨S_, .f32⟩
  | .hbm, ⟨22, _⟩ => ⟨S96x1, .f32⟩
  | .hbm, ⟨23, _⟩ => ⟨S96x1, .f32⟩
  | .hbm, ⟨24, _⟩ => ⟨S96x64, .f32⟩
  | .hbm, ⟨25, _⟩ => ⟨S96x64, .f32⟩
  | .hbm, ⟨26, _⟩ => ⟨S96x64, .f32⟩
  | .hbm, ⟨27, _⟩ => ⟨S96x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S48x4096, .f32⟩
  | .local _ .vmem, ⟨1, _⟩ => ⟨S48x4096, .f32⟩
  | .local _ .vmem, ⟨2, _⟩ => ⟨S48x4096, .f32⟩
  | .local _ .vmem, ⟨3, _⟩ => ⟨S48x4096, .f32⟩
  | .local _ .vmem, ⟨4, _⟩ => ⟨S4096x128, .bf16⟩
  | .local _ .vmem, ⟨5, _⟩ => ⟨S48x64, .f32⟩
  | .local _ .vmem, ⟨6, _⟩ => ⟨S48x64, .f32⟩
  | .local _ .vmem, ⟨7, _⟩ => ⟨S48x64, .f32⟩
  | .local _ .vmem, ⟨8, _⟩ => ⟨S48x64, .f32⟩
  | .local _ .vmem, ⟨9, _⟩ => ⟨S48x64, .f32⟩
  | .local _ .vmem, ⟨10, _⟩ => ⟨S48x64, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32_860 : BitVec 32 := 63#32
  let v2224 : BitVec 1 := Scalar.cmpi .eq arg1 c63_i32_860
  let v2225 : BitVec 32 := Scalar.extui v2224
  let c0_i32_861 : BitVec 32 := 0#32
  let v2226 : BitVec 1 := Scalar.cmpi .ne v2225 c0_i32_861
  v2226

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S48x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S48x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x3x512x512_S96x262144 : S32x3x512x512.ShapeCasts S96x262144
  bcast_S_S4096x128 : S_.BroadcastsInDim S4096x128 (![] : Fin 0 → Fin S4096x128.rank)
  inb_S48x64_S48x64_0_0 : ∀ a, (![0, 0] : Fin 2 → Nat) a + S48x64.size a ≤ S48x64.size a
  h_S48x64 : 0 < S48x64.numel
  shapeCasts_S48x64_S48x64 : S48x64.ShapeCasts S48x64
  iota_S1x64_d1_w32 : S1x64.Iotas .tc 32 [1]
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S48x4096_S48x4096_0_0 : ∀ a, (![0, 0] : Fin 2 → Nat) a + S48x4096.size a ≤ S48x4096.size a
  h_S48x4096 : 0 < S48x4096.numel
  shapeCasts_S48x4096_S48x4096 : S48x4096.ShapeCasts S48x4096
  bitsLt_bf16_f32 : FTy.bits .bf16 < FTy.bits .f32
  slices_S48x128_o0_0_S48x1 : S48x128.Slices ![0, 0] S48x1
  broadcasts_S48x1_S48x64 : S48x1.Broadcasts S48x64
  broadcasts_S1x64_S48x64 : S1x64.Broadcasts S48x64
  reducesTo_S96x64_S96_d1 : S96x64.ReducesTo [1] S96
  h_S_ : 0 < S_.numel
  bcast_S96_S96x1_0 : S96.BroadcastsInDim S96x1 (![0] : Fin 1 → Fin S96x1.rank)
  bcast_S_S96x1 : S_.BroadcastsInDim S96x1 (![] : Fin 0 → Fin S96x1.rank)
  bcast_S96x1_S96x64_0_1 : S96x1.BroadcastsInDim S96x64 (![0, 1] : Fin 2 → Fin S96x64.rank)
  reducesTo_S96x64_S_d0_1 : S96x64.ReducesTo [0, 1] S_
  dot_S48x4096_S4096x128_S48x128_1_0_0_1_n_n_wf : DotDims.WF S48x4096 S4096x128 S48x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x4096.size a ≤ S96x262144.size a
  hwx0_0 : ∀ i : grid0.Coords, EltTy.bits .f32 = 32 ∨ (Rect.block (s := S96x262144) S48x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S48x4096.size a ≤ S96x262144.size a
  hwx0_1 : ∀ i : grid0.Coords, EltTy.bits .f32 = 32 ∨ (Rect.block (s := S96x262144) S48x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .bf16 = 32 ∨ (Rect.block (s := S4096x128) S4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S48x64.size a ≤ S96x64.size a
  hwx0_3 : ∀ i : grid0.Coords, EltTy.bits .f32 = 32 ∨ (Rect.block (s := S96x64) S48x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S48x64.size a ≤ S96x64.size a
  hwx0_4 : ∀ i : grid0.Coords, EltTy.bits .f32 = 32 ∨ (Rect.block (s := S96x64) S48x64.size (cc0_transform_4 i) (hinb0_4 i)).WholeWords (EltTy.packing .f32)

variable [Facts₀]

def dot_S48x4096_S4096x128_S48x128_1_0_0_1_n_n : DotDims S48x4096 S4096x128 S48x128 where
  lhsContracting := [1]
  rhsContracting := [0]
  lhsNonContracting := [0]
  rhsNonContracting := [1]
  lhsBatch := []
  rhsBatch := []
  wf := dot_S48x4096_S4096x128_S48x128_1_0_0_1_n_n_wf

abbrev win0_0 : Pipeline.Window sig grid0 :=
  Pipeline.Window.ofSpec (Memref.whole main_v0) S48x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S48x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S48x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S48x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S96x262144 : Shape := ⟨2, ![96, 262144]⟩
abbrev S96 : Shape := ⟨1, ![96]⟩
abbrev S96x1 : Shape := ⟨2, ![96, 1]⟩
abbrev S25165824 : Shape := ⟨1, ![25165824]⟩
abbrev S6144 : Shape := ⟨1, ![6144]⟩
abbrev S25165824x1 : Shape := ⟨2, ![25165824, 1]⟩
abbrev S96x64 : Shape := ⟨2, ![96, 64]⟩
abbrev S32x3x64 : Shape := ⟨3, ![32, 3, 64]⟩

abbrev nBuf : Space → Nat
  | .hbm => 112
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S_, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x3x512x512, .f32⟩
  | .hbm, ⟨12, _⟩ => ⟨S32x3x512x512, .f32⟩
  | .hbm, ⟨13, _⟩ => ⟨S_, .f32⟩
  | .hbm, ⟨14, _⟩ => ⟨S32x3x512x512, .f32⟩
  | .hbm, ⟨15, _⟩ => ⟨S32x3x512x512, .f32⟩
  | .hbm, ⟨16, _⟩ => ⟨S96x262144, .f32⟩
  | .hbm, ⟨17, _⟩ => ⟨S_, .f32⟩
  | .hbm, ⟨18, _⟩ => ⟨S96x262144, .f32⟩
  | .hbm, ⟨19, _⟩ => ⟨S96x262144, .f32⟩
  | .hbm, ⟨20, _⟩ => ⟨S96x262144, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S96x262144, .i32⟩
  | .hbm, ⟨25, _⟩ => ⟨S96x262144, .i32⟩
  | .hbm, ⟨26, _⟩ => ⟨S_, .i32⟩
  | .hbm, ⟨27, _⟩ => ⟨S96x262144, .i32⟩
  | .hbm, ⟨28, _⟩ => ⟨S96x262144, .i32⟩
  | .hbm, ⟨29, _⟩ => ⟨S96, .i32⟩
  | .hbm, ⟨30, _⟩ => ⟨S_, .i32⟩
  | .hbm, ⟨31, _⟩ => ⟨S96, .i32⟩
  | .hbm, ⟨32, _⟩ => ⟨S96, .i32⟩
  | .hbm, ⟨33, _⟩ => ⟨S96x1, .i32⟩
  | .hbm, ⟨34, _⟩ => ⟨S96x262144, .i32⟩
  | .hbm, ⟨35, _⟩ => ⟨S96x262144, .i32⟩
  | .hbm, ⟨36, _⟩ => ⟨S25165824, .i32⟩
  | .hbm, ⟨37, _⟩ => ⟨S_, .f32⟩
  | .hbm, ⟨38, _⟩ => ⟨S25165824, .f32⟩
  | .hbm, ⟨39, _⟩ => ⟨S_, .f32⟩
  | .hbm, ⟨40, _⟩ => ⟨S6144, .f32⟩
  | .hbm, ⟨41, _⟩ => ⟨S25165824x1, .i32⟩
  | .hbm, ⟨42, _⟩ => ⟨S6144, .f32⟩
  | .hbm, ⟨43, _⟩ => ⟨S96x64, .f32⟩
  | .hbm, ⟨44, _⟩ => ⟨S_, .f32⟩
  | .hbm, ⟨45, _⟩ => ⟨S96, .f32⟩
  | .hbm, ⟨46, _⟩ => ⟨S96x1, .f32⟩
  | .hbm, ⟨47, _⟩ => ⟨S_, .f32⟩
  | .hbm, ⟨48, _⟩ => ⟨S_, .f32⟩
  | .hbm, ⟨49, _⟩ => ⟨S96x1, .f32⟩
  | .hbm, ⟨50, _⟩ => ⟨S96x1, .f32⟩
  | .hbm, ⟨51, _⟩ => ⟨S96x64, .f32⟩
  | .hbm, ⟨52, _⟩ => ⟨S96x64, .f32⟩
  | .hbm, ⟨53, _⟩ => ⟨S32x3x64, .f32⟩
  | .hbm, ⟨54, _⟩ => ⟨S_, .f32⟩
  | .hbm, ⟨55, _⟩ => ⟨S32x3x512x512, .f32⟩
  | .hbm, ⟨56, _⟩ => ⟨S32x3x512x512, .f32⟩
  | .hbm, ⟨57, _⟩ => ⟨S_, .f32⟩
  | .hbm, ⟨58, _⟩ => ⟨S32x3x512x512, .f32⟩
  | .hbm, ⟨59, _⟩ => ⟨S32x3x512x512, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x3x512x512, .f32⟩
  | .hbm, ⟨64, _⟩ => ⟨S32x3x512x512, .f32⟩
  | .hbm, ⟨65, _⟩ => ⟨S_, .f32⟩
  | .hbm, ⟨66, _⟩ => ⟨S32x3x512x512, .f32⟩
  | .hbm, ⟨67, _⟩ => ⟨S32x3x512x512, .f32⟩
  | .hbm, ⟨68, _⟩ => ⟨S96x262144, .f32⟩
  | .hbm, ⟨69, _⟩ => ⟨S_, .f32⟩
  | .hbm, ⟨70, _⟩ => ⟨S96x262144, .f32⟩
  | .hbm, ⟨71, _⟩ => ⟨S96x262144, .f32⟩
  | .hbm, ⟨72, _⟩ => ⟨S96x262144, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S96x262144, .i32⟩
  | .hbm, ⟨77, _⟩ => ⟨S96x262144, .i32⟩
  | .hbm, ⟨78, _⟩ => ⟨S_, .i32⟩
  | .hbm, ⟨79, _⟩ => ⟨S96x262144, .i32⟩
  | .hbm, ⟨80, _⟩ => ⟨S96x262144, .i32⟩
  | .hbm, ⟨81, _⟩ => ⟨S96, .i32⟩
  | .hbm, ⟨82, _⟩ => ⟨S_, .i32⟩
  | .hbm, ⟨83, _⟩ => ⟨S96, .i32⟩
  | .hbm, ⟨84, _⟩ => ⟨S96, .i32⟩
  | .hbm, ⟨85, _⟩ => ⟨S96x1, .i32⟩
  | .hbm, ⟨86, _⟩ => ⟨S96x262144, .i32⟩
  | .hbm, ⟨87, _⟩ => ⟨S96x262144, .i32⟩
  | .hbm, ⟨88, _⟩ => ⟨S25165824, .i32⟩
  | .hbm, ⟨89, _⟩ => ⟨S_, .f32⟩
  | .hbm, ⟨90, _⟩ => ⟨S25165824, .f32⟩
  | .hbm, ⟨91, _⟩ => ⟨S_, .f32⟩
  | .hbm, ⟨92, _⟩ => ⟨S6144, .f32⟩
  | .hbm, ⟨93, _⟩ => ⟨S25165824x1, .i32⟩
  | .hbm, ⟨94, _⟩ => ⟨S6144, .f32⟩
  | .hbm, ⟨95, _⟩ => ⟨S96x64, .f32⟩
  | .hbm, ⟨96, _⟩ => ⟨S_, .f32⟩
  | .hbm, ⟨97, _⟩ => ⟨S96, .f32⟩
  | .hbm, ⟨98, _⟩ => ⟨S96x1, .f32⟩
  | .hbm, ⟨99, _⟩ => ⟨S_, .f32⟩
  | .hbm, ⟨100, _⟩ => ⟨S_, .f32⟩
  | .hbm, ⟨101, _⟩ => ⟨S96x1, .f32⟩
  | .hbm, ⟨102, _⟩ => ⟨S96x1, .f32⟩
  | .hbm, ⟨103, _⟩ => ⟨S96x64, .f32⟩
  | .hbm, ⟨104, _⟩ => ⟨S96x64, .f32⟩
  | .hbm, ⟨105, _⟩ => ⟨S32x3x64, .f32⟩
  | .hbm, ⟨106, _⟩ => ⟨S32x3x64, .f32⟩
  | .hbm, ⟨107, _⟩ => ⟨S32x3x64, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_c_4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_6 : Ref sig .tc := ⟨.hbm, 37, rfl⟩
abbrev main_v17 : Ref sig .tc := ⟨.hbm, 38, rfl⟩
abbrev main_cst_7 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_8 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_call2_v0 : Ref sig .tc := ⟨.hbm, 48, rfl⟩
abbrev main_call2_v1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_v29 : Ref sig .tc := ⟨.hbm, 56, rfl⟩
abbrev main_cst_11 : Ref sig .tc := ⟨.hbm, 57, rfl⟩
abbrev main_v30 : Ref sig .tc := ⟨.hbm, 58, rfl⟩
abbrev main_v31 : Ref sig .tc := ⟨.hbm, 59, rfl⟩
abbrev main_cst_12 : Ref sig .tc := ⟨.hbm, 60, rfl⟩
abbrev main_cst_13 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v32 : Ref sig .tc := ⟨.hbm, 67, rfl⟩
abbrev main_v33 : Ref sig .tc := ⟨.hbm, 68, rfl⟩
abbrev main_cst_14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_c_15 : Ref sig .tc := ⟨.hbm, 73, rfl⟩
abbrev main_c_16 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_call4_v4 : Ref sig .tc := ⟨.hbm, 79, rfl⟩
abbrev main_v37 : Ref sig .tc := ⟨.hbm, 80, rfl⟩
abbrev main_v38 : Ref sig .tc := ⟨.hbm, 81, rfl⟩
abbrev main_c_17 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_18 : Ref sig .tc := ⟨.hbm, 89, rfl⟩
abbrev main_v45 : Ref sig .tc := ⟨.hbm, 90, rfl⟩
abbrev main_cst_19 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_20 : Ref sig .tc := ⟨.hbm, 96, rfl⟩
abbrev main_v50 : Ref sig .tc := ⟨.hbm, 97, rfl⟩
abbrev main_v51 : Ref sig .tc := ⟨.hbm, 98, rfl⟩
abbrev main_cst_21 : Ref sig .tc := ⟨.hbm, 99, rfl⟩
abbrev main_call5_v0 : Ref sig .tc := ⟨.hbm, 100, rfl⟩
abbrev main_call5_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_22 : Ref sig .tc := ⟨.hbm, 108, rfl⟩
abbrev main_v58 : Ref sig .tc := ⟨.hbm, 109, rfl⟩
abbrev main_cst_23 : Ref sig .tc := ⟨.hbm, 110, rfl⟩
abbrev main_v59 : Ref sig .tc := ⟨.hbm, 111, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  shapeCasts_S32x3x512x512_S96x262144 : S32x3x512x512.ShapeCasts S96x262144
  bcast_S_S96x262144 : S_.BroadcastsInDim S96x262144 (![] : Fin 0 → Fin S96x262144.rank)
  bcast_S_S96 : S_.BroadcastsInDim S96 (![] : Fin 0 → Fin S96.rank)
  bcast_S96_S96x1_0 : S96.BroadcastsInDim S96x1 (![0] : Fin 1 → Fin S96x1.rank)
  bcast_S96x1_S96x262144_0_1 : S96x1.BroadcastsInDim S96x262144 (![0, 1] : Fin 2 → Fin S96x262144.rank)
  shapeCasts_S96x262144_S25165824 : S96x262144.ShapeCasts S25165824
  bcast_S_S25165824 : S_.BroadcastsInDim S25165824 (![] : Fin 0 → Fin S25165824.rank)
  bcast_S_S6144 : S_.BroadcastsInDim S6144 (![] : Fin 0 → Fin S6144.rank)
  bcast_S25165824_S25165824x1_0 : S25165824.BroadcastsInDim S25165824x1 (![0] : Fin 1 → Fin S25165824x1.rank)
  shapeCasts_S6144_S96x64 : S6144.ShapeCasts S96x64
  reducesTo_S96x64_S96_d1 : S96x64.ReducesTo [1] S96
  h_S_ : 0 < S_.numel
  bcast_S_S96x1 : S_.BroadcastsInDim S96x1 (![] : Fin 0 → Fin S96x1.rank)
  bcast_S96x1_S96x64_0_1 : S96x1.BroadcastsInDim S96x64 (![0, 1] : Fin 2 → Fin S96x64.rank)
  shapeCasts_S96x64_S32x3x64 : S96x64.ShapeCasts S32x3x64
  reducesTo_S32x3x64_S_d0_1_2 : S32x3x64.ReducesTo [0, 1, 2] S_
  scatter_S6144_S25165824x1_S25165824_n_0_0_1_wf : ScatterDims.WF S6144 S25165824x1 S25165824 [] [0] [0] 1

variable [Facts₀]

def scatter_S6144_S25165824x1_S25165824_n_0_0_1 : ScatterDims S6144 S25165824x1 S25165824 where
  updateWindowDims := []
  insertedWindowDims := [0]
  scatterDimsToOperandDims := [0]
  indexVectorDim := 1
  wf := scatter_S6144_S25165824x1_S25165824_n_0_0_1_wf

class Facts : Prop extends Facts₀ where

variable [Facts]
-- ==== Proof.Tile.lean ====
/-
  One tile of one input against the 64 bins, as the kernel's body spells it, written once.

  For a bin `b` the body builds the 0/1 mask of the tile's elements whose bin index is `b`, multiplies the
  mask (48 × 4096) by the block of ones (4096 × 128) into a zero accumulator — every column of the product
  is the number of hits per row —, takes column 0 (48 × 1), spreads it over the 64 bin columns, multiplies
  by the 0/1 selector of column `b` (1 × 64, spread over the 48 rows), and adds the product to the running
  48 × 64 histogram (`binStep`).  The body does this for b = 0, 1, …, 63 in order (`tileAcc`).
-/
import proofs.«137937_j26886495272980_2_alg».proof.KernelIdeal

noncomputable section

namespace Cert.KernelIdeal.Tile

open Idealize.ShloMosaic Cert.KernelIdeal

variable {F : FTy → Type} [FloatOps F] [Cert.KernelIdeal.Facts]
open Facts₀ Facts

/-- The 0/1 selector of bin column `b`, one row of 64. -/
def selector (b : BitVec 32) : FVec F S1x64 .f32 :=
  select (cmpi .eq (iota .tc S1x64 32 [1] iota_S1x64_d1_w32) (broadcast S1x64 b))
    (broadcast S1x64 (Scalar.ofBits .f32 0x3F800000#32)) (broadcast S1x64 (Scalar.ofBits .f32 0x00000000#32))

/-- Per row, how many of the tile's bin indices equal `b`: the mask times the block of ones, column 0. -/
def hitsCol (b : BitVec 32) (ones : FVec F S4096x128 .bf16) (idx : IVec S48x4096 32) : FVec F S48x1 .f32 :=
  extractStridedSlice S48x1 ![0, 0]
    (matmul dot_S48x4096_S4096x128_S48x128_1_0_0_1_n_n none
      (truncf .bf16 (select (cmpi .eq idx (broadcast S48x4096 b))
        (broadcast S48x4096 (Scalar.ofBits .f32 0x3F800000#32)) (broadcast S48x4096 (Scalar.ofBits .f32 0x00000000#32))) bitsLt_bf16_f32)
      ones (constant S48x128 .f32 0x00000000#32))
    slices_S48x128_o0_0_S48x1

/-- Bin `b`'s hits added into column `b` of the running histogram. -/
def binStep (b : BitVec 32) (ones : FVec F S4096x128 .bf16) (idx : IVec S48x4096 32) (acc : FVec F S48x64 .f32) :
    FVec F S48x64 .f32 :=
  addf acc (mulf (broadcastTo S48x64 (hitsCol b ones idx) broadcasts_S48x1_S48x64)
    (broadcastTo S48x64 (selector (F := F) b) broadcasts_S1x64_S48x64))

/-- The 64 bins, in the order the body takes them. -/
def bins : List (BitVec 32) := [0#32, 1#32, 2#32, 3#32, 4#32, 5#32, 6#32, 7#32, 8#32, 9#32, 10#32, 11#32, 12#32, 13#32, 14#32, 15#32, 16#32, 17#32, 18#32, 19#32, 20#32, 21#32, 22#32, 23#32, 24#32, 25#32, 26#32, 27#32, 28#32, 29#32, 30#32, 31#32, 32#32, 33#32, 34#32, 35#32, 36#32, 37#32, 38#32, 39#32, 40#32, 41#32, 42#32, 43#32, 44#32, 45#32, 46#32, 47#32, 48#32, 49#32, 50#32, 51#32, 52#32, 53#32, 54#32, 55#32, 56#32, 57#32, 58#32, 59#32, 60#32, 61#32, 62#32, 63#32]

/-- The running histogram after all 64 bins of one tile. -/
def tileAcc (ones : FVec F S4096x128 .bf16) (idx : IVec S48x4096 32) (acc : FVec F S48x64 .f32) : FVec F S48x64 .f32 :=
  bins.foldl (fun a b => binStep b ones idx a) acc

end Cert.KernelIdeal.Tile

end
-- ==== Proof.Pieces.lean ====
/-
  What each control case of the body leaves in the two carried 48 × 64 histograms and, at a row block's last
  tile, in the two output blocks — each read back as ONE term: the 64-bin accumulation of the tile
  (`Tile.tileAcc`) over the histogram the tile started from.

  At a row block's first tile the body first stores zeros, so the accumulation starts from the zero block;
  at every other tile it starts from what the tile before left.  At the last tile the outputs receive the
  histograms just stored.  All of this holds at any instance of the float operations.
-/
import proofs.«137937_j26886495272980_2_alg».proof.Proof.Gen.KernelIdeal.Frame
import proofs.«137937_j26886495272980_2_alg».proof.Proof.Tile
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Tile

variable {F : FTy → Type} [FloatOps F]

theorem hz : (![0, 0] : Fin 2 → Nat) = fun _ => 0 := funext fun a => by fin_cases a <;> rfl

/-- The histogram a tile leaves, from the one it started with: the stored value is the accumulation cast to its own shape. -/
abbrev after (ones : Vec F S4096x128 .bf16) (idx : IVec S48x4096 32) (acc : Vec F S48x64 .f32) : Vec F S48x64 .f32 :=
  shapeCast S48x64 (tileAcc (k0_pay4 ones) idx acc) shapeCasts_S48x64_S48x64

/-- First tile of a row block, first input: the zero block, then the tile's 64 bins. -/
theorem first_fake (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : cond0_0 i) (hc1 : ¬cond0_1 i)
    (x0 : Vec F S48x4096 .f32) (x1 : Vec F S48x4096 .f32) (x2 : Vec F S4096x128 .bf16)  :
    sout0_A_0 c i arg2 harg2 arg3 harg3 arg4 harg4 arg5 harg5 arg6 harg6 arg7 harg7 arg8 harg8 hc0 hc1 x0 x1 x2  = after x2 (k0_pay5 x0) k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2 )]
  unfold kernelRun0_A
  dsimp only
  sl_unfold_words
  rw [View.canon_cons_unit_zero (S := S48x64) hz, View.readCov_unit_zero (S := S48x64) _ hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- First tile of a row block, second input. -/
theorem first_real (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : cond0_0 i) (hc1 : ¬cond0_1 i)
    (x0 : Vec F S48x4096 .f32) (x1 : Vec F S48x4096 .f32) (x2 : Vec F S4096x128 .bf16)  :
    sout0_A_1 c i arg2 harg2 arg3 harg3 arg4 harg4 arg5 harg5 arg6 harg6 arg7 harg7 arg8 harg8 hc0 hc1 x0 x1 x2  = after x2 (k0_pay97 x1) k0_pay3 := by
  unfold sout0_A_1
  rw [View.read_writes_eq_canon _ _ _ (scover0_A_1 c i arg2 harg2 arg3 harg3 arg4 harg4 arg5 harg5 arg6 harg6 arg7 harg7 arg8 harg8 hc0 hc1 x0 x1 x2 )]
  unfold kernelRun0_A
  dsimp only
  sl_unfold_words
  rw [View.canon_cons_unit_zero (S := S48x64) hz, View.readCov_unit_zero (S := S48x64) _ hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- A middle tile, first input: the tile's 64 bins over what the tile before left. -/
theorem mid_fake (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : ¬cond0_1 i)
    (x0 : Vec F S48x4096 .f32) (x1 : Vec F S48x4096 .f32) (x2 : Vec F S4096x128 .bf16) (xs0 : Vec F S48x64 .f32) (xs1 : Vec F S48x64 .f32) :
    sout0_B_0 c i arg2 harg2 arg3 harg3 arg4 harg4 arg5 harg5 arg6 harg6 arg7 harg7 arg8 harg8 hc0 hc1 x0 x1 x2 xs0 xs1 = after x2 (k0_pay5 x0) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- A middle tile, second input. -/
theorem mid_real (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : ¬cond0_1 i)
    (x0 : Vec F S48x4096 .f32) (x1 : Vec F S48x4096 .f32) (x2 : Vec F S4096x128 .bf16) (xs0 : Vec F S48x64 .f32) (xs1 : Vec F S48x64 .f32) :
    sout0_B_1 c i arg2 harg2 arg3 harg3 arg4 harg4 arg5 harg5 arg6 harg6 arg7 harg7 arg8 harg8 hc0 hc1 x0 x1 x2 xs0 xs1 = after x2 (k0_pay97 x1) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- The last tile, first input: as a middle tile. -/
theorem last_fake (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : cond0_1 i)
    (x0 : Vec F S48x4096 .f32) (x1 : Vec F S48x4096 .f32) (x2 : Vec F S4096x128 .bf16) (xs0 : Vec F S48x64 .f32) (xs1 : Vec F S48x64 .f32) :
    sout0_C_0 c i arg2 harg2 arg3 harg3 arg4 harg4 arg5 harg5 arg6 harg6 arg7 harg7 arg8 harg8 hc0 hc1 x0 x1 x2 xs0 xs1 = after x2 (k0_pay5 x0) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- The last tile, second input. -/
theorem last_real (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : cond0_1 i)
    (x0 : Vec F S48x4096 .f32) (x1 : Vec F S48x4096 .f32) (x2 : Vec F S4096x128 .bf16) (xs0 : Vec F S48x64 .f32) (xs1 : Vec F S48x64 .f32) :
    sout0_C_1 c i arg2 harg2 arg3 harg3 arg4 harg4 arg5 harg5 arg6 harg6 arg7 harg7 arg8 harg8 hc0 hc1 x0 x1 x2 xs0 xs1 = after x2 (k0_pay97 x1) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- The last tile copies the first histogram, as just stored, to the first output block. -/
theorem out_fake (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : cond0_1 i)
    (x0 : Vec F S48x4096 .f32) (x1 : Vec F S48x4096 .f32) (x2 : Vec F S4096x128 .bf16) (xs0 : Vec F S48x64 .f32) (xs1 : Vec F S48x64 .f32) :
    out0_C_3 c i arg2 harg2 arg3 harg3 arg4 harg4 arg5 harg5 arg6 harg6 arg7 harg7 arg8 harg8 hc0 hc1 x0 x1 x2 xs0 xs1 = after x2 (k0_pay5 x0) xs0 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S48x64) _ hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

/-- The last tile copies the second histogram, as just stored, to the second output block. -/
theorem out_real (c : Dev nD) (i : grid0.Coords) (arg2 : Memref sig .tc .vmem S48x4096 .f32) (harg2 : arg2.IsWhole) (arg3 : Memref sig .tc .vmem S48x4096 .f32) (harg3 : arg3.IsWhole) (arg4 : Memref sig .tc .vmem S4096x128 .bf16) (harg4 : arg4.IsWhole) (arg5 : Memref sig .tc .vmem S48x64 .f32) (harg5 : arg5.IsWhole) (arg6 : Memref sig .tc .vmem S48x64 .f32) (harg6 : arg6.IsWhole) (arg7 : Memref sig .tc .vmem S48x64 .f32) (harg7 : arg7.IsWhole) (arg8 : Memref sig .tc .vmem S48x64 .f32) (harg8 : arg8.IsWhole) (hc0 : ¬cond0_0 i) (hc1 : cond0_1 i)
    (x0 : Vec F S48x4096 .f32) (x1 : Vec F S48x4096 .f32) (x2 : Vec F S4096x128 .bf16) (xs0 : Vec F S48x64 .f32) (xs1 : Vec F S48x64 .f32) :
    out0_C_4 c i arg2 harg2 arg3 harg3 arg4 harg4 arg5 harg5 arg6 harg6 arg7 harg7 arg8 harg8 hc0 hc1 x0 x1 x2 xs0 xs1 = after x2 (k0_pay97 x1) xs1 := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S48x64) _ hz]
  simp only [View.readAt_eq_ld, harg2.read_unread, harg3.read_unread, harg4.read_unread, harg7.read_unread, harg8.read_unread, View.ld_unit_zero (S := S48x4096) hz, View.ld_unit_zero (S := S4096x128) hz, View.ld_unit_zero (S := S48x64) hz]
  rfl

end Cert.KernelIdeal.Pieces

end
-- ==== Proof.Spec.lean ====
/-
  The histogram loss, as ONE function of the two inputs flattened to 96 rows of 262144 values.

  Every value `y` is sent to a bin: clamp it to [0, 1], scale by 64, truncate toward zero to a 32-bit
  integer, clamp that to 0 … 63 (`binOf`).  Row `r` of an input has, for bin `j`, the COUNT of its values
  whose bin is `j` (`counts`: a sum of ones and zeros over the row).  A row of counts is divided by the
  larger of a small constant and the row's total (`rowNorm`); the loss is the sum over all rows and bins of
  the absolute difference of the two normalised histograms, divided by 6144 (`loss`).

  Both programs compute exactly this at the ideal values: one by 64 masked sums per tile accumulated
  over tiles, the other by adding a one at position `64 r + bin` for every value.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

/-- 96 rows of 262144 values: an input with its batch and channel axes merged and its image axes merged. -/
abbrev Rows : Shape := ⟨2, ![96, 262144]⟩
/-- 96 histograms of 64 bins. -/
abbrev Bins : Shape := ⟨2, ![96, 64]⟩

/-- The bin of a value: clamped to [0, 1], scaled by 64, truncated toward zero, clamped to 0 … 63. -/
def binOf (y : EReal) : BitVec 32 :=
  IntOp.minsi 63#32 (IntOp.maxsi 0#32 (Ideal.fptosi 32 (min 1 (max 0 y) * Ideal.ofBits .f32 0x42800000#32)))

/-- One where the value's bin is `b`, zero elsewhere. -/
def hit (b : BitVec 32) (y : EReal) : EReal := if binOf y = b then 1 else 0

/-- How many values of row `i 0` fall in bin `i 1`. -/
def counts (x : Rows.Idx → EReal) : Bins.Idx → EReal :=
  fun i => ∑ k : Fin 262144, hit (BitVec.ofNat 32 (i 1).val) (x (ix2 (i 0) k))

/-- A histogram row divided by the larger of the small constant and the row's total. -/
def rowNorm (c : Bins.Idx → EReal) : Bins.Idx → EReal :=
  fun i => Ideal.div (c i) (max (Ideal.ofBits .f32 0x322BCC77#32) (∑ j : Fin 64, c (ix2 (i 0) j)))

/-- The mean absolute difference of the two normalised histograms (the divisor 6144 = 96 · 64 kept as its pattern). -/
def loss (cf cr : Bins.Idx → EReal) : EReal :=
  Ideal.div (∑ i : Bins.Idx, max (rowNorm cf i - rowNorm cr i) (-(rowNorm cf i - rowNorm cr i)))
    (Ideal.ofBits .f32 0x45C00000#32)

/-! ## The three patterns whose values the proof uses, and division by one -/

theorem f32_zero : Ideal.ofBits .f32 0x00000000#32 = 0 := Ideal.ofBits_zero_f32

theorem f32_one : Ideal.ofBits .f32 0x3F800000#32 = 1 := by
  simp [Ideal.ofBits, Ideal.ieee, -EReal.coe_mul]; norm_num

theorem bf16_one : Ideal.ofBits .bf16 0x3F80#16 = 1 := by
  simp [Ideal.ofBits, Ideal.ieee, -EReal.coe_mul]; norm_num

/-- Dividing by one changes no extended real, the infinities included. -/
theorem div_one' (x : EReal) : Ideal.div x 1 = x := by
  have h := Ideal.div_coe (y := 1) one_ne_zero x
  simpa using h

/-- The value the kernel bins: `(y − 0) · 1`. -/
theorem sub_zero_mul_one (y : EReal) : (y - 0) * 1 = y := by simp

/-- The value the reference bins: `(y − 0) / 1`. -/
theorem sub_zero_div_one (y : EReal) : Ideal.div (y - 0) 1 = y := by rw [div_one']; simp

end Cert.Hist

end
-- ==== Proof.Blocks.lean ====
/-
  The arrays the region finds, and its windows' blocks read at an index (at the ideal values).

  The two inputs reach the region flattened to 96 × 262144; the third operand is a 4096 × 128 block of
  ones.  The grid has 2 × 64 points; point `t` is row block `t / 64`, tile `t % 64`: it reads rows
  `48·(t/64) … 48·(t/64)+47`, columns `4096·(t%64) … 4096·(t%64)+4095` of each input, always the whole
  ones block, and its output blocks are rows `48·(t/64) …` of the two 96 × 64 results.
-/
import proofs.«137937_j26886495272980_2_alg».proof.Proof.Gen.KernelIdeal.Frame
import proofs.«137937_j26886495272980_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Cert.Hist Idealize.ShloMosaic.ValueIdx

variable (m : (ℓ : Loc nD τ sig) → Buf (Elt Ideal) ℓ)

/-- Entry (a, b) of a 96 × 262144 array addressed by naturals (zero outside the array). -/
def at2 (X : Rows.Idx → EReal) (a b : ℕ) : EReal :=
  if h : a < 96 ∧ b < 262144 then X (ix2 ⟨a, h.1⟩ ⟨b, h.2⟩) else 0

/-- How many of the first `n` values of row `a` fall in bin `j`. -/
def prefixHits (X : Rows.Idx → EReal) (a j n : ℕ) : EReal :=
  ∑ k ∈ Finset.range n, hit (BitVec.ofNat 32 j) (at2 X a k)

/-- One more tile of 4096 values. -/
theorem prefixHits_tile (X : Rows.Idx → EReal) (a j h : ℕ) :
    prefixHits X a j (4096 * (h + 1)) = prefixHits X a j (4096 * h)
      + ∑ k ∈ Finset.range 4096, hit (BitVec.ofNat 32 j) (at2 X a (4096 * h + k)) := by
  unfold prefixHits
  rw [show 4096 * (h + 1) = 4096 * h + 4096 by ring, Finset.sum_range_add]

/-- The whole row: the count of the specification. -/
theorem counts_eq_prefixHits (X : Rows.Idx → EReal) (i : Bins.Idx) (a j : ℕ) (ha : (i 0).val = a) (hj : (i 1).val = j) :
    counts X i = prefixHits X a j 262144 := by
  unfold counts prefixHits
  rw [Finset.sum_range]
  refine Finset.sum_congr rfl fun k _ => ?_
  have ha' : a < 96 := ha ▸ (i 0).isLt
  unfold at2
  rw [dif_pos ⟨ha', k.isLt⟩, hj]
  exact congrArg (fun z => hit (BitVec.ofNat 32 j) (X z)) (congrArg (fun z => ix2 z k) (Fin.ext ha))

/-! ## The arrays as the region finds them -/

/-- The first input reaches the region flattened. -/
theorem V_fake (c : Dev nD) :
    (V m c main_v0 : S96x262144.Idx → EReal)
      = shapeCast S96x262144 (m ((c : Thread nD τ).loc main_arg0)) Facts₀.shapeCasts_S32x3x512x512_S96x262144 := by
  show StableHlo.after hostOps0 (fun b => m (c, b)) (Proc.devRef .tc main_v0) = _
  after_results
  rfl

/-- The second input reaches the region flattened. -/
theorem V_real (c : Dev nD) :
    (V m c main_v1 : S96x262144.Idx → EReal)
      = shapeCast S96x262144 (m ((c : Thread nD τ).loc main_arg1)) Facts₀.shapeCasts_S32x3x512x512_S96x262144 := by
  show StableHlo.after hostOps0 (fun b => m (c, b)) (Proc.devRef .tc main_v1) = _
  after_results
  rfl

/-- The third operand is all ones. -/
theorem V_ones (c : Dev nD) (i : S4096x128.Idx) : (V m c main_v2 : S4096x128.Idx → EReal) i = (1 : EReal) := by
  have e : (V m c main_v2 : S4096x128.Idx → EReal)
      = broadcastInDim S4096x128 ![] Facts₀.bcast_S_S4096x128 (constant (F := Ideal) S_ .bf16 0x3F80#16) := by
    show StableHlo.after hostOps0 (fun b => m (c, b)) (Proc.devRef .tc main_v2) = _
    after_results
  rw [e]
  exact bf16_one

/-! ## The windows' blocks -/

/-- Where each window's block sits at point `t`, decided over the 128 points. -/
theorem idx_facts : ∀ t : Fin cfg0.N,
    win0_0.index t (0 : Fin 2) = t.val / 64 ∧ win0_0.index t (1 : Fin 2) = t.val % 64
    ∧ win0_1.index t (0 : Fin 2) = t.val / 64 ∧ win0_1.index t (1 : Fin 2) = t.val % 64
    ∧ win0_2.index t (0 : Fin 2) = 0 ∧ win0_2.index t (1 : Fin 2) = 0
    ∧ win0_3.index t (0 : Fin 2) = t.val / 64 ∧ win0_3.index t (1 : Fin 2) = 0
    ∧ win0_4.index t (0 : Fin 2) = t.val / 64 ∧ win0_4.index t (1 : Fin 2) = 0 :=
  (by decide +kernel : ∀ t : Fin grid0.N, _)

/-- The first input's block at point `t`, at (r, k): row `48·(t/64) + r`, column `4096·(t%64) + k`. -/
theorem iblk_fake (c : Dev nD) (t : Fin cfg0.N) (r : Fin 48) (k : Fin 4096) :
    (iblk m c 0 t : S48x4096.Idx → EReal) (ix2 r k)
      = at2 (V m c main_v0) (48 * (t.val / 64) + r.val) (4096 * (t.val % 64) + k.val) := by
  obtain ⟨e0, e1, -⟩ := idx_facts t
  have hN : t.val < 128 := lt_of_lt_of_eq t.isLt N_0
  have ha : 48 * (t.val / 64) + r.val < 96 := by have := r.isLt; omega
  have hb : 4096 * (t.val % 64) + k.val < 262144 := by have := k.isLt; omega
  unfold at2
  rw [dif_pos ⟨ha, hb⟩]
  show V m c main_v0 (((cfg0.win 0).blk t).view.emb (ix2 r k)) = V m c main_v0 _
  refine congrArg (V m c main_v0) ?_
  funext a; apply Fin.ext
  match a with
  | ⟨0, _⟩ => show win0_0.index t (0 : Fin 2) * 48 + 1 * r.val = 48 * (t.val / 64) + r.val; omega
  | ⟨1, _⟩ => show win0_0.index t (1 : Fin 2) * 4096 + 1 * k.val = 4096 * (t.val % 64) + k.val; omega

/-- The second input's block likewise. -/
theorem iblk_real (c : Dev nD) (t : Fin cfg0.N) (r : Fin 48) (k : Fin 4096) :
    (iblk m c 1 t : S48x4096.Idx → EReal) (ix2 r k)
      = at2 (V m c main_v1) (48 * (t.val / 64) + r.val) (4096 * (t.val % 64) + k.val) := by
  obtain ⟨-, -, e0, e1, -⟩ := idx_facts t
  have hN : t.val < 128 := lt_of_lt_of_eq t.isLt N_0
  have ha : 48 * (t.val / 64) + r.val < 96 := by have := r.isLt; omega
  have hb : 4096 * (t.val % 64) + k.val < 262144 := by have := k.isLt; omega
  unfold at2
  rw [dif_pos ⟨ha, hb⟩]
  show V m c main_v1 (((cfg0.win 1).blk t).view.emb (ix2 r k)) = V m c main_v1 _
  refine congrArg (V m c main_v1) ?_
  funext a; apply Fin.ext
  match a with
  | ⟨0, _⟩ => show win0_1.index t (0 : Fin 2) * 48 + 1 * r.val = 48 * (t.val / 64) + r.val; omega
  | ⟨1, _⟩ => show win0_1.index t (1 : Fin 2) * 4096 + 1 * k.val = 4096 * (t.val % 64) + k.val; omega

/-- The ones block, at every point and index. -/
theorem iblk_ones (c : Dev nD) (t : Fin cfg0.N) (i : S4096x128.Idx) :
    (iblk m c 2 t : S4096x128.Idx → EReal) i = (1 : EReal) :=
  V_ones m c _

end Cert.KernelIdeal.Blocks

end
-- ==== Proof.TileValue.lean ====
/-
  One tile's 64-bin accumulation, read at an index at the ideal values.

  The tile is 48 rows of 4096 values.  Each value has a bin index (`Cert.Hist.binOf`: clamp to [0, 1], scale by
  64, truncate toward zero, clamp to 0 … 63).  For a bin `b` the body multiplies the 0/1 mask of the elements
  whose bin index is `b` by a block of ones; at the extended reals that product, read at column 0 of row `r`, is
  the sum over the row of the mask: the number of the row's elements in bin `b` (`rowHits`, `hitsCol_apply`).
  It is spread over the 64 bin columns and multiplied by the 0/1 selector of column `b`; since `h · 1 = h` and
  `h · 0 = 0` for every extended real `h`, the step adds the row's hits to column `b` and nothing to the other
  columns (`binStep_apply`).  Folding the step over a list of bins adds, at column `j`, the list's sum of the
  contributions masked to `j` (`foldl_binStep_apply`); the 64 bins are the words 0 … 63 without repeats, so that
  sum is the one contribution of bin `j` (`sum_map_ite_of_nodup`).  Hence `tileAcc_apply`: entry `(r, j)` gains
  the number of row `r`'s tile elements whose bin is `j`.
-/
import proofs.«137937_j26886495272980_2_alg».proof.Proof.Spec
import proofs.«137937_j26886495272980_2_alg».proof.Proof.Tile
import proofs.«137937_j26886495272980_2_alg».proof.Proof.Gen.KernelIdeal.Skeleton
import Idealize.ShloMosaic.Lib.Pipeline.Value
import Idealize.ShloMosaic.Lib.ValueLayout

noncomputable section

namespace Cert.KernelIdeal.TileValue

open Cert.KernelIdeal Cert.KernelIdeal.Gen Cert.KernelIdeal.Tile Idealize.ShloMosaic Idealize.ShloMosaic.ValueIdx

/-! ## Facts about words and lists, independent of the program -/

/-- `arith.select` on the bit of an integer equality test chooses by the equality. -/
theorem select_cmpi_eq {w : Nat} {α : Type} (x y : BitVec w) (a b : α) :
    Scalar.select (IntOp.cmpi .eq x y) a b = if x = y then a else b := by
  unfold Scalar.select IntOp.cmpi
  by_cases h : x = y
  · simp [h]
  · have hb : (x == y) = false := by simpa using h
    simp [h, hb]

/-- Over a list without repeats that contains `a`, the sum of `f` masked to `a` is `f a`. -/
theorem sum_map_ite_of_nodup (l : List (BitVec 32)) (hl : l.Nodup) (a : BitVec 32) (ha : a ∈ l) (f : BitVec 32 → EReal) :
    (l.map fun b => if a = b then f b else 0).sum = f a := by
  induction l with
  | nil => cases ha
  | cons c l ih =>
    rw [List.map_cons, List.sum_cons]
    rw [List.nodup_cons] at hl
    by_cases hac : a = c
    · subst hac
      rw [if_pos rfl]
      have h0 : (l.map fun b => if a = b then f b else 0).sum = 0 := by
        apply List.sum_eq_zero
        intro x hx
        rw [List.mem_map] at hx
        obtain ⟨b, hb, rfl⟩ := hx
        rw [if_neg]
        rintro rfl
        exact hl.1 hb
      rw [h0, add_zero]
    · rw [if_neg hac, zero_add]
      exact ih hl.2 (by
        rcases List.mem_cons.1 ha with h | h
        · exact absurd h hac
        · exact h)

/-- The 64 bins are the words 0, 1, …, 63 in order. -/
theorem bins_eq : bins = (List.range 64).map (BitVec.ofNat 32) := by rfl

/-- No bin is listed twice: below 2³² distinct numbers are distinct words. -/
theorem bins_nodup : bins.Nodup := by
  rw [bins_eq]
  refine List.Nodup.map_on ?_ List.nodup_range
  intro x hx y hy hxy
  rw [List.mem_range] at hx hy
  have := congrArg BitVec.toNat hxy
  simp only [BitVec.toNat_ofNat] at this
  omega

/-- Every column's word is one of the bins. -/
theorem mem_bins (j : Fin 64) : BitVec.ofNat 32 j.val ∈ bins := by
  rw [bins_eq]
  exact List.mem_map.2 ⟨j.val, List.mem_range.2 j.isLt, rfl⟩

/-- A column of 48 spread over 64 columns reads its row. -/
theorem broadcastTo_a1_ab_apply {α : Type} (v : S48x1.Idx → α) (h : S48x1.Broadcasts S48x64) (r : Fin 48) (j : Fin 64) :
    broadcastTo S48x64 v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- How many of row `r`'s 4096 bin indices equal `b`. -/
def rowHits (b : BitVec 32) (idx : IVec S48x4096 32) (r : Fin 48) : EReal :=
  ∑ k : Fin 4096, if idx (ix2 r k) = b then (1 : EReal) else 0

/-! ## The tile's operations at an index -/

variable [Cert.KernelIdeal.Facts]

local notation "dotD" => dot_S48x4096_S4096x128_S48x128_1_0_0_1_n_n

/-- The tile's bin indices: each element's bin (`(y − 0) · 1 = y`, then the clamps, the scaling and the truncation
    are `binOf`'s own). -/
theorem pay5_apply (x0 : Vec Ideal S48x4096 .f32) (i : S48x4096.Idx) :
    k0_pay5 (F := Ideal) x0 i = Cert.Hist.binOf (x0 i) := by
  unfold k0_pay5
  show IntOp.minsi 63#32 (IntOp.maxsi 0#32 (Ideal.fptosi 32
      (min (Ideal.ofBits .f32 0x3F800000#32) (max (Ideal.ofBits .f32 0x00000000#32)
        ((shapeCast S48x4096 x0 Facts₀.shapeCasts_S48x4096_S48x4096 i - Ideal.ofBits .f32 0x00000000#32)
          * Ideal.ofBits .f32 0x3F800000#32)) * Ideal.ofBits .f32 0x42800000#32))) = _
  rw [shapeCast_self, Cert.Hist.f32_zero, Cert.Hist.f32_one, Cert.Hist.sub_zero_mul_one]
  rfl

/-- The block of ones read through its shape cast to its own shape. -/
theorem pay4_apply (x2 : Vec Ideal S4096x128 .bf16) (hx2 : ∀ i, x2 i = (1 : EReal)) (i : S4096x128.Idx) :
    k0_pay4 (F := Ideal) x2 i = (1 : EReal) := by
  unfold k0_pay4
  show shapeCast S4096x128 x2 Facts₀.shapeCasts_S4096x128_S4096x128 i = 1
  rw [shapeCast_self]; exact hx2 i

/-- The product's left operand is read at the result's row … -/
theorem lhs_0 (i : S48x128.Idx) (q : (dotD).contr.Idx) : ((dotD).lhsIdx i q 0).val = (i 0).val := by
  unfold DotDims.lhsIdx
  rw [dif_neg (show ¬(0 : Fin S48x4096.rank) ∈ (dotD).lhsBatch by decide),
    dif_pos (show (0 : Fin S48x4096.rank) ∈ (dotD).lhsNonContracting by decide)]
  rfl

/-- … and at the contraction position's one coordinate. -/
theorem lhs_1 (i : S48x128.Idx) (q : (dotD).contr.Idx) : ((dotD).lhsIdx i q 1).val = (q ⟨0, by decide⟩).val :=
  (dotD).lhsIdx_val_of_single rfl i q

/-- The mask of bin `b` times the block of ones, column 0 of row `r`: the sum over the row of the mask (each
    product is `m · 1 = m`), the row's number of hits. -/
theorem hitsCol_apply (b : BitVec 32) (ones : FVec Ideal S4096x128 .bf16) (hones : ∀ i, ones i = (1 : EReal))
    (idx : IVec S48x4096 32) (r : Fin 48) :
    hitsCol (F := Ideal) b ones idx (ix2 r (0 : Fin 1)) = rowHits b idx r := by
  unfold hitsCol rowHits
  rw [extractStridedSlice_apply _ _ _ _ (ix2 r (0 : Fin 128)) (fun a => by
    match a with
    | ⟨0, _⟩ => exact (Nat.zero_add _).symm
    | ⟨1, _⟩ => rfl)]
  simp only [matmul]
  rw [Ideal.matmul_constant_zero_apply, ← Equiv.sum_comp (contrEquiv1 (dotD) 4096 rfl rfl).symm]
  refine Finset.sum_congr rfl fun k _ => ?_
  have hk := contrEquiv1_symm_val (dotD) 4096 rfl rfl k
  have el : (dotD).lhsIdx (ix2 r (0 : Fin 128)) ((contrEquiv1 (dotD) 4096 rfl rfl).symm k) = ix2 r k :=
    funext fun a => Fin.ext (by
      match a with
      | ⟨0, _⟩ => exact lhs_0 _ _
      | ⟨1, _⟩ => exact (lhs_1 _ _).trans hk)
  rw [el, hones, mul_one]
  show Scalar.select (IntOp.cmpi .eq (idx (ix2 r k)) b) (Ideal.ofBits .f32 0x3F800000#32) (Ideal.ofBits .f32 0x00000000#32) = _
  rw [select_cmpi_eq, Cert.Hist.f32_one, Cert.Hist.f32_zero]

/-- The selector of bin column `b` at column `j`: one when `j` is `b`, zero elsewhere. -/
theorem selector_apply (b : BitVec 32) (j : Fin 64) :
    selector (F := Ideal) b (ix2 (0 : Fin 1) j) = if BitVec.ofNat 32 j.val = b then (1 : EReal) else 0 := by
  unfold selector
  show Scalar.select (IntOp.cmpi .eq (iota .tc S1x64 32 [1] Facts₀.iota_S1x64_d1_w32 (ix2 (0 : Fin 1) j)) b)
    (Ideal.ofBits .f32 0x3F800000#32) (Ideal.ofBits .f32 0x00000000#32) = _
  rw [iota_single_apply, select_cmpi_eq, Cert.Hist.f32_one, Cert.Hist.f32_zero]

/-- One bin's step at an index: the row's hits for that bin land in the bin's own column, nothing elsewhere.
    On the extended reals `h · 1 = h` and `h · 0 = 0` for every `h`, the infinities included. -/
theorem binStep_apply (b : BitVec 32) (ones : FVec Ideal S4096x128 .bf16) (hones : ∀ i, ones i = (1 : EReal))
    (idx : IVec S48x4096 32) (acc : FVec Ideal S48x64 .f32) (r : Fin 48) (j : Fin 64) :
    binStep (F := Ideal) b ones idx acc (ix2 r j)
      = acc (ix2 r j) + (if BitVec.ofNat 32 j.val = b then rowHits b idx r else 0) := by
  unfold binStep
  rw [addf_apply, mulf_apply, broadcastTo_a1_ab_apply, broadcastTo_1b_ab_apply, hitsCol_apply b ones hones,
    selector_apply]
  by_cases h : BitVec.ofNat 32 j.val = b
  · rw [if_pos h, if_pos h, mul_one]
  · rw [if_neg h, if_neg h, mul_zero]

/-- Any list of bins folded in order adds, at an index, the list's sum of the per-bin contributions. -/
theorem foldl_binStep_apply (ones : FVec Ideal S4096x128 .bf16) (hones : ∀ i, ones i = (1 : EReal))
    (idx : IVec S48x4096 32) (l : List (BitVec 32)) (acc : FVec Ideal S48x64 .f32) (r : Fin 48) (j : Fin 64) :
    (l.foldl (fun a b => binStep (F := Ideal) b ones idx a) acc) (ix2 r j)
      = acc (ix2 r j) + (l.map fun b => if BitVec.ofNat 32 j.val = b then rowHits b idx r else 0).sum := by
  induction l generalizing acc with
  | nil => simp
  | cons b l ih =>
    rw [List.foldl_cons, ih, binStep_apply b ones hones, List.map_cons, List.sum_cons, add_assoc]

/-- One tile's 64-bin accumulation at an index: every histogram entry gains the number of the row's tile elements
    whose bin is that entry's column. -/
theorem tileAcc_apply (x0 : Vec Ideal S48x4096 .f32) (x2 : Vec Ideal S4096x128 .bf16) (hx2 : ∀ i, x2 i = (1 : EReal))
    (acc : Vec Ideal S48x64 .f32) (r : Fin 48) (j : Fin 64) :
    tileAcc (F := Ideal) (k0_pay4 x2) (k0_pay5 x0) acc (ix2 r j)
      = acc (ix2 r j) + ∑ k : Fin 4096, Cert.Hist.hit (BitVec.ofNat 32 j.val) (x0 (ix2 r k)) := by
  unfold tileAcc
  rw [foldl_binStep_apply (k0_pay4 x2) (pay4_apply x2 hx2),
    sum_map_ite_of_nodup bins bins_nodup _ (mem_bins j) (fun b => rowHits b (k0_pay5 x0) r)]
  unfold rowHits
  refine congrArg (acc (ix2 r j) + ·) (Finset.sum_congr rfl fun k _ => ?_)
  rw [pay5_apply]
  rfl

end Cert.KernelIdeal.TileValue

end
-- ==== Proof.KernelCounts.lean ====
/-
  The two result arrays of the region are the specification's counts of the two flattened inputs.

  INVARIANT.  After grid point `n` (row block `n / 64`, tile `n % 64`) the two carried 48 × 64 histograms hold,
  at (r, j), the number of values among the first `4096 · (n % 64 + 1)` of row `48 · (n / 64) + r` of the
  first (second) input whose bin is `j`: the first tile of a row block starts from zeros, every tile adds its
  own 4096 values' hits (the tile law), and a prefix of `4096 · (h + 1)` values is a prefix of `4096 · h`
  followed by one tile.  At a row block's last tile the prefix is the whole row of 262144 values, the outputs
  receive the histograms, and those are the only blocks written back; the two row blocks cover the 96 rows.
-/
import proofs.«137937_j26886495272980_2_alg».proof.Proof.Pieces
import proofs.«137937_j26886495272980_2_alg».proof.Proof.Blocks
import proofs.«137937_j26886495272980_2_alg».proof.Proof.TileValue
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Counts

open Cert.KernelIdeal Cert.KernelIdeal.Gen Cert.KernelIdeal.Tile Cert.KernelIdeal.Pieces Cert.KernelIdeal.Blocks
open Cert.Hist Idealize.ShloMosaic.ValueIdx

variable (m : (ℓ : Loc nD τ sig) → Buf (Elt Ideal) ℓ)

/-- The second input's bin indices are computed by the same operations as the first's. -/
theorem pay97_eq (x : Vec Ideal S48x4096 .f32) : k0_pay97 (F := Ideal) x = k0_pay5 x := rfl

/-- The block of zeros the first tile of a row block stores into the first histogram. -/
theorem zero_fake (i : S48x64.Idx) : (k0_pay2 (F := Ideal)) i = (0 : EReal) := by
  show shapeCast S48x64 (broadcast S48x64 (Scalar.ofBits (F := Ideal) .f32 0x00000000#32)) _ i = 0
  rw [shapeCast_self]
  exact f32_zero

/-- And into the second. -/
theorem zero_real (i : S48x64.Idx) : (k0_pay3 (F := Ideal)) i = (0 : EReal) := by
  show shapeCast S48x64 (broadcast S48x64 (Scalar.ofBits (F := Ideal) .f32 0x00000000#32)) _ i = 0
  rw [shapeCast_self]
  exact f32_zero

/-- The tile law at point `t`, first input: the tile adds, at (r, j), the hits of bin `j` among its 4096 values of
    row `48·(t/64) + r`, which are columns `4096·(t%64) …` of that row. -/
theorem after_fake (c : Dev nD) (t : Fin cfg0.N) (acc : Vec Ideal S48x64 .f32) (r : Fin 48) (j : Fin 64) :
    Pieces.after (iblk m c 2 t) (k0_pay5 (iblk m c 0 t)) acc (ix2 r j)
      = acc (ix2 r j) + ∑ k ∈ Finset.range 4096, hit (BitVec.ofNat 32 j.val)
          (at2 (V m c main_v0) (48 * (t.val / 64) + r.val) (4096 * (t.val % 64) + k)) := by
  show shapeCast S48x64 (tileAcc (k0_pay4 (iblk m c 2 t)) (k0_pay5 (iblk m c 0 t)) acc) _ (ix2 r j) = _
  rw [shapeCast_self]
  refine (TileValue.tileAcc_apply (iblk m c 0 t) (iblk m c 2 t) (iblk_ones m c t) acc r j).trans ?_
  refine congrArg (acc (ix2 r j) + ·) ?_
  rw [Finset.sum_range]
  exact Finset.sum_congr rfl fun k _ => by rw [iblk_fake m c t r k]

/-- The tile law at point `t`, second input. -/
theorem after_real (c : Dev nD) (t : Fin cfg0.N) (acc : Vec Ideal S48x64 .f32) (r : Fin 48) (j : Fin 64) :
    Pieces.after (iblk m c 2 t) (k0_pay97 (iblk m c 1 t)) acc (ix2 r j)
      = acc (ix2 r j) + ∑ k ∈ Finset.range 4096, hit (BitVec.ofNat 32 j.val)
          (at2 (V m c main_v1) (48 * (t.val / 64) + r.val) (4096 * (t.val % 64) + k)) := by
  show shapeCast S48x64 (tileAcc (k0_pay4 (iblk m c 2 t)) (k0_pay5 (iblk m c 1 t)) acc) _ (ix2 r j) = _
  rw [shapeCast_self]
  refine (TileValue.tileAcc_apply (iblk m c 1 t) (iblk m c 2 t) (iblk_ones m c t) acc r j).trans ?_
  refine congrArg (acc (ix2 r j) + ·) ?_
  rw [Finset.sum_range]
  exact Finset.sum_congr rfl fun k _ => by rw [iblk_real m c t r k]

/-- THE INVARIANT: after point `n` the carried histograms count the hits among the first `4096·(n%64+1)` values
    of the row block's rows. -/
theorem carried (c : Dev nD) (n : ℕ) : ∀ (hn : n < cfg0.N) (r : Fin 48) (j : Fin 64),
    (outsAt0 m c n hn).2.2.1 (ix2 r j) = prefixHits (V m c main_v0) (48 * (n / 64) + r.val) j.val (4096 * (n % 64 + 1))
    ∧ (outsAt0 m c n hn).2.2.2 (ix2 r j) = prefixHits (V m c main_v1) (48 * (n / 64) + r.val) j.val (4096 * (n % 64 + 1)) := by
  induction n using Nat.strong_induction_on with
  | _ n ih =>
    intro hn r j
    have hN : n < 128 := lt_of_lt_of_eq hn N_0
    let t : Fin cfg0.N := ⟨n, hn⟩
    by_cases h0 : t.val % 64 = 0
    · -- the first tile of a row block: zeros, then this tile
      have h1 : ¬t.val % 64 = 63 := by omega
      have e := outsAt0_A m c t h0 h1
      have eF := first_fake (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)
      have eR := first_real (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)
      have h0' : n % 64 = 0 := h0
      constructor
      · refine (congrArg (fun o => o.2.2.1 (ix2 r j)) e).trans ?_
        dsimp only
        rw [eF, after_fake m c t _ r j, zero_fake, zero_add, h0', prefixHits_tile]
        unfold prefixHits
        rw [Nat.mul_zero, Finset.range_zero, Finset.sum_empty, zero_add]
      · refine (congrArg (fun o => o.2.2.2 (ix2 r j)) e).trans ?_
        dsimp only
        rw [eR, after_real m c t _ r j, zero_real, zero_add, h0', prefixHits_tile]
        unfold prefixHits
        rw [Nat.mul_zero, Finset.range_zero, Finset.sum_empty, zero_add]
    · -- a later tile: what the tile before left, then this tile
      have h0' : ¬n % 64 = 0 := h0
      have hpos : n - 1 < n := by omega
      have IH := ih (n - 1) hpos (Nat.lt_of_le_of_lt (Nat.sub_le _ _) hn) r j
      have q1 : (n - 1) / 64 = n / 64 := by omega
      have q2 : (n - 1) % 64 + 1 = n % 64 := by omega
      rw [q1, q2] at IH
      by_cases h1 : t.val % 64 = 63
      · have e := outsAt0_C m c t h0 h1
        have eF := last_fake (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
        have eR := last_real (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
        constructor
        · refine (congrArg (fun o => o.2.2.1 (ix2 r j)) e).trans ?_
          dsimp only
          rw [eF, after_fake m c t _ r j, prefixHits_tile]
          exact congrArg (· + _) IH.1
        · refine (congrArg (fun o => o.2.2.2 (ix2 r j)) e).trans ?_
          dsimp only
          rw [eR, after_real m c t _ r j, prefixHits_tile]
          exact congrArg (· + _) IH.2
      · have e := outsAt0_B m c t h0 h1
        have eF := mid_fake (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
        have eR := mid_real (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
        constructor
        · refine (congrArg (fun o => o.2.2.1 (ix2 r j)) e).trans ?_
          dsimp only
          rw [eF, after_fake m c t _ r j, prefixHits_tile]
          exact congrArg (· + _) IH.1
        · refine (congrArg (fun o => o.2.2.2 (ix2 r j)) e).trans ?_
          dsimp only
          rw [eR, after_real m c t _ r j, prefixHits_tile]
          exact congrArg (· + _) IH.2

/-- At a row block's last tile the output blocks receive the histograms just stored: whole-row counts. -/
theorem out_last (c : Dev nD) (t : Fin cfg0.N) (h1 : t.val % 64 = 63) (r : Fin 48) (j : Fin 64) :
    (outsAt0 m c t.val t.isLt).1 (ix2 r j) = prefixHits (V m c main_v0) (48 * (t.val / 64) + r.val) j.val 262144
    ∧ (outsAt0 m c t.val t.isLt).2.1 (ix2 r j) = prefixHits (V m c main_v1) (48 * (t.val / 64) + r.val) j.val 262144 := by
  have h0 : ¬t.val % 64 = 0 := by omega
  have e := outsAt0_C m c t h0 h1
  have oF := out_fake (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have oR := out_real (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have eF := last_fake (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have eR := last_real (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2
  have I := carried m c t.val t.isLt r j
  rw [h1] at I
  constructor
  · refine ((congrArg (fun o => o.1 (ix2 r j)) e).trans ?_).trans I.1
    refine Eq.trans ?_ (congrArg (fun o => o.2.2.1 (ix2 r j)) e).symm
    dsimp only
    rw [oF, eF]
  · refine ((congrArg (fun o => o.2.1 (ix2 r j)) e).trans ?_).trans I.2
    refine Eq.trans ?_ (congrArg (fun o => o.2.2.2 (ix2 r j)) e).symm
    dsimp only
    rw [oR, eR]

/-! ## What is written back, and where -/

/-- WHAT A LAST TILE WRITES BACK to the first result is its row block of the first input's counts. -/
theorem flushed_fake (c : Dev nD) (G : S96x64.Idx → EReal)
    (hG : ∀ i : S96x64.Idx, G i = prefixHits (V m c main_v0) (i 0).val (i 1).val 262144)
    (t : Fin cfg0.N) (hf : (cfg0.win 3).flush t = true) :
    (dats m 0 c).flushed 3 t = ((cfg0.win 3).blk t).view.read (Elt Ideal) G := by
  have h1 : t.val % 64 = 63 := (flush0_3 t).mp hf
  obtain ⟨-, -, -, -, -, -, e0, e1, -⟩ := idx_facts t
  show (cfg0.win 3).cut (grid0.coords t) ((dats m 0 c).after 3 t) = _
  funext y
  show (outsAt0 m c t.val t.isLt).1 y = G (((cfg0.win 3).blk t).view.emb y)
  rw [hG]
  refine (congrArg (outsAt0 m c t.val t.isLt).1 (eq_ix2 y)).trans ?_
  refine (out_last m c t h1 (y 0) (y 1)).1.trans ?_
  have a0 : ((((cfg0.win 3).blk t).view.emb y) 0).val = 48 * (t.val / 64) + (y 0).val := by
    show win0_3.index t (0 : Fin 2) * 48 + 1 * (y 0).val = _; omega
  have a1 : ((((cfg0.win 3).blk t).view.emb y) 1).val = (y 1).val := by
    show win0_3.index t (1 : Fin 2) * 64 + 1 * (y 1).val = _; omega
  exact (congrArg₂ (fun a b => prefixHits (V m c main_v0) a b 262144) a0 a1).symm

/-- And to the second result, of the second input's. -/
theorem flushed_real (c : Dev nD) (G : S96x64.Idx → EReal)
    (hG : ∀ i : S96x64.Idx, G i = prefixHits (V m c main_v1) (i 0).val (i 1).val 262144)
    (t : Fin cfg0.N) (hf : (cfg0.win 4).flush t = true) :
    (dats m 0 c).flushed 4 t = ((cfg0.win 4).blk t).view.read (Elt Ideal) G := by
  have h1 : t.val % 64 = 63 := (flush0_4 t).mp hf
  obtain ⟨-, -, -, -, -, -, -, -, e0, e1⟩ := idx_facts t
  show (cfg0.win 4).cut (grid0.coords t) ((dats m 0 c).after 4 t) = _
  funext y
  show (outsAt0 m c t.val t.isLt).2.1 y = G (((cfg0.win 4).blk t).view.emb y)
  rw [hG]
  refine (congrArg (outsAt0 m c t.val t.isLt).2.1 (eq_ix2 y)).trans ?_
  refine (out_last m c t h1 (y 0) (y 1)).2.trans ?_
  have a0 : ((((cfg0.win 4).blk t).view.emb y) 0).val = 48 * (t.val / 64) + (y 0).val := by
    show win0_4.index t (0 : Fin 2) * 48 + 1 * (y 0).val = _; omega
  have a1 : ((((cfg0.win 4).blk t).view.emb y) 1).val = (y 1).val := by
    show win0_4.index t (1 : Fin 2) * 64 + 1 * (y 1).val = _; omega
  exact (congrArg₂ (fun a b => prefixHits (V m c main_v1) a b 262144) a0 a1).symm

/-- Row `a` of a result lies in the block written back by the last tile of row block `a / 48`. -/
theorem cover_fake (i : S96x64.Idx) :
    ∃ t : Fin cfg0.N, (cfg0.win 3).flush t = true ∧ i ∈ ((cfg0.win 3).blk t).view.set := by
  have hi0 : (i 0).val < 96 := (i 0).isLt
  have hi1 : (i 1).val < 64 := (i 1).isLt
  have hN : cfg0.N = 128 := N_0
  let t : Fin cfg0.N := ⟨64 * ((i 0).val / 48) + 63, by omega⟩
  have ht : t.val = 64 * ((i 0).val / 48) + 63 := rfl
  obtain ⟨-, -, -, -, -, -, e0, e1, -⟩ := idx_facts t
  refine ⟨t, (flush0_3 t).mpr (by omega), ?_⟩
  show i ∈ ((View.whole main_v3_0).slice (win0_3.rect t)).set
  rw [View.set_slice_whole, Rect.mem_set_unit]
  intro a
  match a with
  | ⟨0, _⟩ => show win0_3.index t (0 : Fin 2) * 48 ≤ (i 0).val ∧ (i 0).val < win0_3.index t (0 : Fin 2) * 48 + 48; omega
  | ⟨1, _⟩ => show win0_3.index t (1 : Fin 2) * 64 ≤ (i 1).val ∧ (i 1).val < win0_3.index t (1 : Fin 2) * 64 + 64; omega

theorem cover_real (i : S96x64.Idx) :
    ∃ t : Fin cfg0.N, (cfg0.win 4).flush t = true ∧ i ∈ ((cfg0.win 4).blk t).view.set := by
  have hi0 : (i 0).val < 96 := (i 0).isLt
  have hi1 : (i 1).val < 64 := (i 1).isLt
  have hN : cfg0.N = 128 := N_0
  let t : Fin cfg0.N := ⟨64 * ((i 0).val / 48) + 63, by omega⟩
  have ht : t.val = 64 * ((i 0).val / 48) + 63 := rfl
  obtain ⟨-, -, -, -, -, -, -, -, e0, e1⟩ := idx_facts t
  refine ⟨t, (flush0_4 t).mpr (by omega), ?_⟩
  show i ∈ ((View.whole main_v3_1).slice (win0_4.rect t)).set
  rw [View.set_slice_whole, Rect.mem_set_unit]
  intro a
  match a with
  | ⟨0, _⟩ => show win0_4.index t (0 : Fin 2) * 48 ≤ (i 0).val ∧ (i 0).val < win0_4.index t (0 : Fin 2) * 48 + 48; omega
  | ⟨1, _⟩ => show win0_4.index t (1 : Fin 2) * 64 ≤ (i 1).val ∧ (i 1).val < win0_4.index t (1 : Fin 2) * 64 + 64; omega

/-- THE FIRST RESULT ARRAY after the region: the counts of the first flattened input. -/
theorem final_fake (c : Dev nD) : (dats m 0 c).arrAt 3 cfg0.N = counts (V m c main_v0) :=
  (dats m 0 c).arrAt_eq_of_cover 3 (counts (V m c main_v0))
    (flushed_fake m c _ fun i => counts_eq_prefixHits _ i _ _ rfl rfl) cover_fake

/-- THE SECOND RESULT ARRAY after the region: the counts of the second flattened input. -/
theorem final_real (c : Dev nD) : (dats m 0 c).arrAt 4 cfg0.N = counts (V m c main_v1) :=
  (dats m 0 c).arrAt_eq_of_cover 4 (counts (V m c main_v1))
    (flushed_real m c _ fun i => counts_eq_prefixHits _ i _ _ rfl rfl) cover_real

end Cert.KernelIdeal.Counts

end
-- ==== Proof.KernelTail.lean ====
/-
  From the two histograms to the loss, as the kernel's host program spells it.

  Each 96 × 64 histogram is divided, row by row, by the larger of a small constant and the row's total;
  the two results are subtracted, the absolute values are summed over all 96 × 64 indices and the sum is
  divided by 6144.  `tail` is that composition in the program's own operations, for any float instance;
  at the ideal values it is the specification's `loss`.
-/
import proofs.«137937_j26886495272980_2_alg».proof.KernelIdeal
import proofs.«137937_j26886495272980_2_alg».proof.Proof.Spec
import Idealize.ShloMosaic.Lib.Pipeline.Value

noncomputable section

namespace Cert.Hist.Ker

open Cert.KernelIdeal Idealize.ShloMosaic Idealize.ShloMosaic.ValueIdx
open Cert.KernelIdeal.Facts₀ Cert.KernelIdeal.Facts

variable {F : FTy → Type} [FloatOps F] [Cert.KernelIdeal.Facts]

/-- The host operations after the kernel call, in program order, on the kernel's two results `cf` and `cr`. -/
def tail (cf cr : (⟨S96x64, .f32⟩ : BufTy).Contents (Elt F)) : (⟨S_, .f32⟩ : BufTy).Contents (Elt F) :=
  let main_v3_0 : (⟨S96x64, .f32⟩ : BufTy).Contents (Elt F) := cf
  let main_v3_1 : (⟨S96x64, .f32⟩ : BufTy).Contents (Elt F) := cr
  let main_cst_0 : (⟨S_, .f32⟩ : BufTy).Contents (Elt F) := constant (F := F) S_ .f32 0x00000000#32
  let main_v4 : (⟨S96, .f32⟩ : BufTy).Contents (Elt F) := Host.reduceAdd (F := F) main_v3_0 main_cst_0 reducesTo_S96x64_S96_d1 h_S_
  let main_v5 : (⟨S96x1, .f32⟩ : BufTy).Contents (Elt F) := broadcastInDim S96x1 ![0] bcast_S96_S96x1_0 main_v4
  let main_cst_1 : (⟨S_, .f32⟩ : BufTy).Contents (Elt F) := constant (F := F) S_ .f32 0x322BCC77#32
  let main_call0_v0 : (⟨S_, .f32⟩ : BufTy).Contents (Elt F) := id main_cst_1
  let main_call0_v1 : (⟨S96x1, .f32⟩ : BufTy).Contents (Elt F) := broadcastInDim S96x1 ![] bcast_S_S96x1 main_call0_v0
  let main_v6 : (⟨S96x1, .f32⟩ : BufTy).Contents (Elt F) := maximumf (F := F) main_call0_v1 main_v5
  let main_v7 : (⟨S96x64, .f32⟩ : BufTy).Contents (Elt F) := broadcastInDim S96x64 ![0, 1] bcast_S96x1_S96x64_0_1 main_v6
  let main_v8 : (⟨S96x64, .f32⟩ : BufTy).Contents (Elt F) := Host.divf (F := F) main_v3_0 main_v7
  let main_cst_2 : (⟨S_, .f32⟩ : BufTy).Contents (Elt F) := constant (F := F) S_ .f32 0x00000000#32
  let main_v9 : (⟨S96, .f32⟩ : BufTy).Contents (Elt F) := Host.reduceAdd (F := F) main_v3_1 main_cst_2 reducesTo_S96x64_S96_d1 h_S_
  let main_v10 : (⟨S96x1, .f32⟩ : BufTy).Contents (Elt F) := broadcastInDim S96x1 ![0] bcast_S96_S96x1_0 main_v9
  let main_cst_3 : (⟨S_, .f32⟩ : BufTy).Contents (Elt F) := constant (F := F) S_ .f32 0x322BCC77#32
  let main_call1_v0 : (⟨S_, .f32⟩ : BufTy).Contents (Elt F) := id main_cst_3
  let main_call1_v1 : (⟨S96x1, .f32⟩ : BufTy).Contents (Elt F) := broadcastInDim S96x1 ![] bcast_S_S96x1 main_call1_v0
  let main_v11 : (⟨S96x1, .f32⟩ : BufTy).Contents (Elt F) := maximumf (F := F) main_call1_v1 main_v10
  let main_v12 : (⟨S96x64, .f32⟩ : BufTy).Contents (Elt F) := broadcastInDim S96x64 ![0, 1] bcast_S96x1_S96x64_0_1 main_v11
  let main_v13 : (⟨S96x64, .f32⟩ : BufTy).Contents (Elt F) := Host.divf (F := F) main_v3_1 main_v12
  let main_v14 : (⟨S96x64, .f32⟩ : BufTy).Contents (Elt F) := subf (F := F) main_v8 main_v13
  let main_v15 : (⟨S96x64, .f32⟩ : BufTy).Contents (Elt F) := Host.absf (F := F) main_v14
  let main_cst_4 : (⟨S_, .f32⟩ : BufTy).Contents (Elt F) := constant (F := F) S_ .f32 0x00000000#32
  let main_v16 : (⟨S_, .f32⟩ : BufTy).Contents (Elt F) := Host.reduceAdd (F := F) main_v15 main_cst_4 reducesTo_S96x64_S_d0_1 h_S_
  let main_cst_5 : (⟨S_, .f32⟩ : BufTy).Contents (Elt F) := constant (F := F) S_ .f32 0x45C00000#32
  let main_v17 : (⟨S_, .f32⟩ : BufTy).Contents (Elt F) := Host.divf (F := F) main_v16 main_cst_5
  main_v17

/-! ## The layout operations and the two sums, read at an index -/

/-- A row vector broadcast to one column: read at row `i 0`. -/
theorem bcast_row_apply (y : S96.Idx → EReal) (i : S96x1.Idx) :
    broadcastInDim S96x1 ![0] bcast_S96_S96x1_0 y i = y (ix1 (i 0)) :=
  broadcastInDim_apply _ bcast_S96_S96x1_0 y i (ix1 (i 0)) (fun a => match a with
    | ⟨0, _⟩ => by show (i 0).val = if (96 : Nat) = 1 then 0 else (i 0).val; rw [if_neg (by decide)])

/-- A scalar broadcast to one column: the scalar everywhere. -/
theorem bcast_scalar_apply (y : S_.Idx → EReal) (i : S96x1.Idx) :
    broadcastInDim S96x1 ![] bcast_S_S96x1 y i = y ix0 :=
  broadcastInDim_apply _ bcast_S_S96x1 y i ix0 (fun a => a.elim0)

/-- One column broadcast to 64 columns: read at row `i 0`, column 0. -/
theorem bcast_col_apply (y : S96x1.Idx → EReal) (i : S96x64.Idx) :
    broadcastInDim S96x64 ![0, 1] bcast_S96x1_S96x64_0_1 y i = y (ix2 (i 0) (0 : Fin 1)) :=
  broadcastInDim_apply _ bcast_S96x1_S96x64_0_1 y i (ix2 (i 0) (0 : Fin 1)) (fun a => match a with
    | ⟨0, _⟩ => by show (i 0).val = if (96 : Nat) = 1 then 0 else (i 0).val; rw [if_neg (by decide)]
    | ⟨1, _⟩ => by show 0 = if (1 : Nat) = 1 then 0 else (i 1).val; rw [if_pos rfl])

/-- The sum over the columns: the initial value plus the row's 64 entries. -/
theorem rowSum_apply (c : S96x64.Idx → EReal) (init : S_.Idx → EReal) (i : S96.Idx) :
    Host.reduceAdd (F := Ideal) (φ := .f32) c init reducesTo_S96x64_S96_d1 h_S_ i
      = init (Shape.Idx.first h_S_) + ∑ k : Fin 64, c (ix2 (i 0) k) := by
  simp only [Host.reduceAdd, Ideal.hostReduceAdd_def]
  rw [Ideal.hostReduceAdd_single reducesTo_S96x64_S96_d1 (by decide)]
  refine congrArg (_ + ·) (Finset.sum_congr rfl fun k _ => ?_)
  exact congrArg c (funext fun a => Fin.ext (by match a with | ⟨0, _⟩ => rfl | ⟨1, _⟩ => rfl))

/-- The sum over both axes: the initial value plus all 96 × 64 entries. -/
theorem total_apply (y : S96x64.Idx → EReal) (init : S_.Idx → EReal) (i : S_.Idx) :
    Host.reduceAdd (F := Ideal) (φ := .f32) y init reducesTo_S96x64_S_d0_1 h_S_ i
      = init (Shape.Idx.first h_S_) + ∑ j : S96x64.Idx, y j := by
  simp only [Host.reduceAdd, Ideal.hostReduceAdd_def]
  exact Ideal.hostReduceAdd_total reducesTo_S96x64_S_d0_1 (fun b => b.elim0) y _ i

/-- The host's quotient at an index is the division of the elements. -/
theorem hostDivf_apply {s : Shape} (a b : s.Idx → EReal) (i : s.Idx) :
    Host.divf (F := Ideal) (φ := .f32) a b i = Ideal.div (a i) (b i) := rfl

/-- The host's absolute value at an index is the larger of the element and its negation. -/
theorem hostAbsf_apply {s : Shape} (a : s.Idx → EReal) (i : s.Idx) :
    Host.absf (F := Ideal) (φ := .f32) a i = max (a i) (-(a i)) := rfl

/-- A histogram divided by its clamped row totals, as the program spells it, is the specification's `rowNorm`. -/
theorem norm_apply (c : Cert.Hist.Bins.Idx → EReal) (j : S96x64.Idx) :
    Host.divf (F := Ideal) (φ := .f32) c
      (broadcastInDim S96x64 ![0, 1] bcast_S96x1_S96x64_0_1
        (maximumf (F := Ideal) (φ := .f32)
          (broadcastInDim S96x1 ![] bcast_S_S96x1 (id (constant (F := Ideal) S_ .f32 0x322BCC77#32)))
          (broadcastInDim S96x1 ![0] bcast_S96_S96x1_0
            (Host.reduceAdd (F := Ideal) (φ := .f32) c (constant (F := Ideal) S_ .f32 0x00000000#32)
              reducesTo_S96x64_S96_d1 h_S_)))) j
      = Cert.Hist.rowNorm c j := by
  show Ideal.div (c j) _ = _
  rw [bcast_col_apply, maximumf_apply, bcast_scalar_apply, bcast_row_apply, rowSum_apply]
  simp only [id, constant_apply, Cert.Hist.f32_zero, zero_add]
  rfl

/-- At the ideal values the kernel's host tail is the specification's loss of the two histograms. -/
theorem tail_eq (cf cr : Cert.Hist.Bins.Idx → EReal) :
    tail (F := Ideal) cf cr = fun _ => Cert.Hist.loss cf cr := by
  funext i
  unfold tail
  dsimp only
  rw [hostDivf_apply, total_apply, constant_apply, constant_apply, Cert.Hist.f32_zero, zero_add]
  unfold Cert.Hist.loss
  refine congrArg (fun s => Ideal.div s (Ideal.ofBits .f32 0x45C00000#32)) (Finset.sum_congr rfl fun j _ => ?_)
  rw [hostAbsf_apply, subf_apply, norm_apply cf j, norm_apply cr j]

end Cert.Hist.Ker

end
-- ==== Proof.KernelRun.lean ====
/-
  The kernel program's run, with its result named: the scalar the host operations after the region compute
  from the region's two result arrays is the specification's loss of the two inputs' counts.

  After the region the two 96 × 64 arrays hold the counts (the region's result arrays after its last
  write-back); the host operations that follow are the normalisation, the absolute difference, the total and the
  division — one composition of the two arrays, read at the ideal values as `loss`.
-/
import proofs.«137937_j26886495272980_2_alg».proof.Proof.KernelCounts
import proofs.«137937_j26886495272980_2_alg».proof.Proof.KernelTail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Blocks Cert.KernelIdeal.Counts Cert.Hist

section Generic
variable {F : FTy → Type} [FloatOps F]

set_option maxHeartbeats 4000000 in
/-- The host operations after the region, run from any contents: the result buffer ends at their composition of
    the two result arrays' contents. -/
theorem tail_of (W : Valuation τ sig (Elt F)) :
    StableHlo.after (List.flatten [hostOps1, hostOps1_1, hostOps1_2, hostOps1_3, hostOps1_4]) W (Proc.devRef .tc main_v17)
      = Ker.tail (F := F) (W (Proc.devRef .tc main_v3_0)) (W (Proc.devRef .tc main_v3_1)) := by
  simp only [hostOps1, hostOps1_1, hostOps1_2, hostOps1_3, hostOps1_4, List.flatten_cons, List.flatten_nil, List.append_nil,
    List.cons_append, List.nil_append]
  after_results
  rfl

end Generic

variable (m : (ℓ : Loc nD τ sig) → Buf (Elt Ideal) ℓ) (ρ : Dev nD → PrngReg)

/-- The result after the host tail: the loss of the counts of the two inputs as the region found them. -/
theorem result (c : Dev nD) :
    Pipeline.afterTail₀ cfgs (dats m) 0 (V0 m) [hostOps1, hostOps1_1, hostOps1_2, hostOps1_3, hostOps1_4] c main_v17
      = fun _ => loss (counts (V m c main_v0)) (counts (V m c main_v1)) := by
  unfold Pipeline.afterTail₀
  refine (tail_of _).trans ?_
  have h3 := (Pipeline.withArrays_arr spec0 launch0.win.arr_inj c (V0 m c) (fun w => (dats m 0 c).arrAt w cfg0.N) 3).trans (final_fake m c)
  have h4 := (Pipeline.withArrays_arr spec0 launch0.win.arr_inj c (V0 m c) (fun w => (dats m 0 c).arrAt w cfg0.N) 4).trans (final_real m c)
  exact (congrArg₂ (Ker.tail (F := Ideal)) h3 h4).trans (Ker.tail_eq _ _)

/-- THE KERNEL PROGRAM'S RUN at the ideal values: it terminates with the result at the loss of the counts of the two
    flattened inputs, and the inputs unchanged. -/
theorem run : θ_run defs (onTc (τ := τ) (main (F := Ideal))) ⟨m, fun _ => 0, ρ⟩ fun r => ∀ c : Dev nD,
      r.2.mem ((c.tc : Thread nD τ).loc main_v17)
        = (fun _ => loss
            (counts (shapeCast S96x262144 (m ((c : Thread nD τ).loc main_arg0)) Facts₀.shapeCasts_S32x3x512x512_S96x262144))
            (counts (shapeCast S96x262144 (m ((c : Thread nD τ).loc main_arg1)) Facts₀.shapeCasts_S32x3x512x512_S96x262144)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v17 (Pipeline.mem_restRefs_of main_v17 (by decide) (by decide))).trans
        ((result m c).trans (by rw [V_fake m c, V_real m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.RefCounts.lean ====
/-
  The reference's histogram counts are the specification's counts.

  The reference sends the value at row `a`, place `k` (96 rows of 262144 places) to the 32-bit word
  `bin + 64 · a`, `bin` the value's bin in `0 … 63`, and adds a one at that position of a zero vector of
  6144 = 96 · 64 elements for each of the 25165824 = 96 · 262144 values; the result is read as 96 rows of 64.

  * The update at flat position `j` lands on the element whose coordinate is the word for `j` read as a signed
    integer (`resultIdx_eq_some_iff`): the operand has one axis, the window on it is the start alone.
  * The word does not wrap: `0 ≤ bin ≤ 63` and `a < 96`, so read signed it is the number `64 a + bin`
    (`word_toInt`), which is `64 r + b` with `b < 64` exactly when `a = r` and `bin = b` (`word_eq_iff`).
  * So the sum of ones over the updates that land on element `64 r + b`, re-indexed by (row, place), keeps row `r`
    only, and there one for each place whose bin is `b` (`sum_hits`): the specification's count.
  * The word at (row, place) is read off the program one operation at a time (`v9_apply`, `v19_apply` for the
    first input; `v37_apply`, `v47_apply` for the second, the same operations under other names).
-/
import proofs.«137937_j26886495272980_2_alg».proof.Proof.Spec
import proofs.«137937_j26886495272980_2_alg».proof.Proof.Gen.ReferenceIdeal.Read

noncomputable section

namespace Cert.Hist.Ref

open Cert.ReferenceIdeal Cert.ReferenceIdeal.Read Idealize.ShloMosaic Idealize.ShloMosaic.ValueIdx

variable [Cert.ReferenceIdeal.Facts]

/-! ## Where an update lands -/

/-- The start of update `j`'s window on the operand's one axis is the word the index vector holds for `j`, read signed. -/
theorem start_eq (idx : IVec S25165824x1 32) (j : S25165824.Idx) (a : Fin S6144.rank) :
    scatter_S6144_S25165824x1_S25165824_n_0_0_1.start j idx a = (idx (ix2 (j 0) 0)).toInt := by
  have ha : a = 0 := Subsingleton.elim _ _
  subst ha
  unfold ScatterDims.start
  rw [dif_pos (show (0 : Fin S6144.rank) ∈ scatter_S6144_S25165824x1_S25165824_n_0_0_1.scatterDimsToOperandDims from List.mem_singleton.2 rfl)]
  refine congrArg (fun t => (idx t).toInt) (funext fun c => ?_)
  match c with
  | ⟨0, _⟩ => rfl
  | ⟨1, _⟩ => rfl

/-- The operand's one axis is an inserted one: no window coordinate is added on it. -/
theorem window_eq (j : S25165824.Idx) (a : Fin S6144.rank) : scatter_S6144_S25165824x1_S25165824_n_0_0_1.window j a = 0 := by
  have hk : scatter_S6144_S25165824x1_S25165824_n_0_0_1.sKept = [] := rfl
  unfold ScatterDims.window
  rw [dif_neg (show ¬ a ∈ scatter_S6144_S25165824x1_S25165824_n_0_0_1.sKept from by rw [hk]; exact List.not_mem_nil)]

/-- Update `j` lands on operand element `i` exactly when the word the index vector holds for `j`, read signed,
    is `i`'s coordinate: a word outside `0 … 6143` lands nowhere. -/
theorem resultIdx_eq_some_iff (idx : IVec S25165824x1 32) (j : S25165824.Idx) (i : S6144.Idx) :
    scatter_S6144_S25165824x1_S25165824_n_0_0_1.resultIdx? j idx = some i ↔ (idx (ix2 (j 0) 0)).toInt = ((i 0).val : Int) := by
  have hi : (i 0).val < 6144 := (i 0).isLt
  unfold ScatterDims.resultIdx?
  split
  · rename_i hh
    have h0 := hh 0
    rw [start_eq, window_eq] at h0
    constructor
    · intro e
      have e' := congrArg (fun f : S6144.Idx => ((f 0).val : Int)) (Option.some.inj e)
      simp only [start_eq, window_eq] at e'
      omega
    · intro e
      refine congrArg some (funext fun a => ?_)
      have ha : a = 0 := Subsingleton.elim _ _
      subst ha
      refine Fin.ext ?_
      show (scatter_S6144_S25165824x1_S25165824_n_0_0_1.start j idx 0 + (scatter_S6144_S25165824x1_S25165824_n_0_0_1.window j 0 : Nat)).toNat = (i 0).val
      rw [start_eq, window_eq]
      omega
  · rename_i hh
    constructor
    · intro e; cases e
    · intro e
      refine absurd (fun a => ?_) hh
      have ha : a = 0 := Subsingleton.elim _ _
      subst ha
      rw [start_eq, window_eq]
      show 0 ≤ _ + ((0 : Nat) : Int) ∧ _ + ((0 : Nat) : Int) < ((6144 : Nat) : Int)
      omega

/-! ## The word `bin + 64 · row` -/

/-- A word clamped to `0 … 63` (signed) lies there. -/
theorem clamp_bounds (t : BitVec 32) :
    0 ≤ (IntOp.minsi 63#32 (IntOp.maxsi 0#32 t)).toInt ∧ (IntOp.minsi 63#32 (IntOp.maxsi 0#32 t)).toInt ≤ 63 := by
  have h0 : (0#32 : BitVec 32).toInt = 0 := by decide
  have h63 : (63#32 : BitVec 32).toInt = 63 := by decide
  unfold IntOp.minsi IntOp.maxsi
  simp only [BitVec.slt, decide_eq_true_eq]
  split_ifs <;> omega

/-- Every value's bin is one of `0 … 63`. -/
theorem binOf_bounds (y : EReal) : 0 ≤ (Cert.Hist.binOf y).toInt ∧ (Cert.Hist.binOf y).toInt ≤ 63 :=
  clamp_bounds _

/-- Bin plus `64 ·` row, in 32-bit words, does not wrap: read signed it is the number `64 · row + bin`. -/
theorem word_toInt (v : BitVec 32) (hv : 0 ≤ v.toInt ∧ v.toInt ≤ 63) (a : Nat) (ha : a < 96) :
    (IntOp.addi v (IntOp.muli (BitVec.ofNat 32 a) 64#32)).toInt = (a : Int) * 64 + v.toInt := by
  unfold IntOp.addi IntOp.muli
  have hv' : v.toNat ≤ 63 := by
    have := hv.1; have := hv.2
    rw [BitVec.toInt_eq_toNat_cond] at *
    split_ifs at * <;> omega
  have hn : (v + BitVec.ofNat 32 a * 64#32).toNat = v.toNat + a * 64 := by
    simp only [BitVec.toNat_add, BitVec.toNat_mul, BitVec.toNat_ofNat, Nat.reducePow]
    omega
  have hvi : v.toInt = v.toNat := by
    rw [BitVec.toInt_eq_toNat_cond]; split_ifs <;> omega
  rw [BitVec.toInt_eq_toNat_cond, hn, hvi]
  split_ifs <;> omega

/-- The word of row `a` and bin word `v` is the number `64 r + b` exactly when the row is `r` and the bin is `b`. -/
theorem word_eq_iff (v : BitVec 32) (hv : 0 ≤ v.toInt ∧ v.toInt ≤ 63) (a r : Fin 96) (b : Fin 64) :
    (IntOp.addi v (IntOp.muli (BitVec.ofNat 32 a.val) 64#32)).toInt = ((r.val * 64 + b.val : Nat) : Int)
      ↔ a = r ∧ v = BitVec.ofNat 32 b.val := by
  rw [word_toInt v hv a.val a.isLt]
  have hb := b.isLt
  have hvn : v.toInt = v.toNat := by
    have := hv.1; have := hv.2
    rw [BitVec.toInt_eq_toNat_cond] at *; split_ifs at * <;> omega
  constructor
  · intro e
    have h1 : a.val = r.val := by omega
    have h2 : v.toNat = b.val := by omega
    refine ⟨Fin.ext h1, BitVec.eq_of_toNat_eq ?_⟩
    rw [BitVec.toNat_ofNat, h2]
    simp only [Nat.reducePow]; omega
  · rintro ⟨rfl, rfl⟩
    rw [BitVec.toInt_eq_toNat_cond, BitVec.toNat_ofNat]
    simp only [Nat.reducePow]
    split_ifs <;> omega

/-! ## The sum of the ones that land on one element -/

/-- An update's flat position is its row and its place in the row: `j ↦ (j / 262144, j % 262144)`, a bijection. -/
def rowEquiv : S25165824.Idx ≃ S96x262144.Idx where
  toFun j := ix2 ⟨(j 0).val / 262144, by have h0 : (j 0).val < 25165824 := (j 0).isLt; omega⟩
    ⟨(j 0).val % 262144, by omega⟩
  invFun p := ix1 ⟨(p 0).val * 262144 + (p 1).val, by
    have h0 : (p 0).val < 96 := (p 0).isLt
    have h1 : (p 1).val < 262144 := (p 1).isLt
    omega⟩
  left_inv j := by
    funext c
    match c with
    | ⟨0, _⟩ => exact Fin.ext (show (j 0).val / 262144 * 262144 + (j 0).val % 262144 = (j 0).val by omega)
  right_inv p := by
    have h1 : (p 1).val < 262144 := (p 1).isLt
    funext c
    match c with
    | ⟨0, _⟩ => exact Fin.ext (show ((p 0).val * 262144 + (p 1).val) / 262144 = (p 0).val by omega)
    | ⟨1, _⟩ => exact Fin.ext (show ((p 0).val * 262144 + (p 1).val) % 262144 = (p 1).val by omega)

/-- Scattering a one for every update whose word is `64 · row + bin` (bins in `0 … 63`): what lands on element
    `64 r + b` is one for each place of row `r` whose bin is `b`. The updates of another row land elsewhere, since
    `64 a + bin = 64 r + b` forces `a = r`; within row `r` the update lands there exactly when its bin is `b`. -/
theorem sum_hits (v : S96x262144.Idx → BitVec 32) (hv : ∀ p, 0 ≤ (v p).toInt ∧ (v p).toInt ≤ 63)
    (idx : IVec S25165824x1 32)
    (hidx : ∀ (a : Fin 96) (k : Fin 262144) (hlt : a.val * 262144 + k.val < 25165824),
      idx (ix2 ⟨a.val * 262144 + k.val, hlt⟩ 0) = IntOp.addi (v (ix2 a k)) (IntOp.muli (BitVec.ofNat 32 a.val) 64#32))
    (r : Fin 96) (b : Fin 64) (hrb : r.val * 64 + b.val < 6144) :
    ∑ j ∈ Finset.univ.filter (fun j => scatter_S6144_S25165824x1_S25165824_n_0_0_1.resultIdx? j idx = some (ix1 ⟨r.val * 64 + b.val, hrb⟩)), (1 : EReal)
      = ∑ k : Fin 262144, if v (ix2 r k) = BitVec.ofNat 32 b.val then 1 else 0 := by
  have key : ∀ (a : Fin 96) (k : Fin 262144),
      scatter_S6144_S25165824x1_S25165824_n_0_0_1.resultIdx? (rowEquiv.symm (ix2 a k)) idx = some (ix1 ⟨r.val * 64 + b.val, hrb⟩)
        ↔ a = r ∧ v (ix2 a k) = BitVec.ofNat 32 b.val := by
    intro a k
    have hlt : a.val * 262144 + k.val < 25165824 := by have := a.isLt; have := k.isLt; omega
    rw [resultIdx_eq_some_iff]
    show (idx (ix2 ⟨a.val * 262144 + k.val, hlt⟩ 0)).toInt = ((r.val * 64 + b.val : Nat) : Int) ↔ _
    rw [hidx a k hlt]
    exact word_eq_iff _ (hv _) a r b
  rw [Finset.sum_filter]
  refine (Equiv.sum_comp rowEquiv.symm _).symm.trans ?_
  rw [sum_idx2, Fintype.sum_eq_single r]
  · exact Finset.sum_congr rfl fun k _ => if_congr ((key r k).trans (and_iff_right rfl)) rfl rfl
  · intro a hne
    exact Finset.sum_eq_zero fun k _ => if_neg fun hh => hne ((key a k).1 hh).1

/-- The host's accumulating scatter at the ideal values, read at an element: the operand's element plus the sum of
    the updates that land on it. -/
theorem scatterAdd_apply {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

/-! ## The first input -/

/-- The reference's clamped integer bin at row `p 0`, place `p 1` is the bin of the input's value there: the two
    constants are zero and one, and `(y − 0) / 1 = y`. -/
theorem v9_apply (h : S32x3x512x512.ShapeCasts Cert.Hist.Rows)
    (x0 : (⟨S32x3x512x512, .f32⟩ : BufTy).Contents (Elt Ideal)) (p : S96x262144.Idx) :
    val_main_v9 (F := Ideal) x0 p = Cert.Hist.binOf (shapeCast Cert.Hist.Rows x0 h p) := by
  have hx : shapeCast Cert.Hist.Rows x0 h p = x0 (idx_main_v5 p) :=
    shapeCast_apply x0 h p (idx_main_v5 p)
      (by rewrite [Shape.rowMajor_val_four, Shape.rowMajor_val_two]; have h0 : (p 0).val < 96 := (p 0).isLt; have h1 : (p 1).val < 262144 := (p 1).isLt; show ((((p 0).val * 262144 + (p 1).val) / 786432 * 3 + ((p 0).val * 262144 + (p 1).val) / 262144 % 3) * 512 + ((p 0).val * 262144 + (p 1).val) / 512 % 512) * 512 + ((p 0).val * 262144 + (p 1).val) % 512 = (p 0).val * 262144 + (p 1).val; omega)
  rw [hx, val_main_v9_apply, val_main_call1_v4_apply, val_main_call1_v3_apply, val_main_c_4_apply,
    val_main_call1_v2_apply, val_main_call1_v1_apply, val_main_call1_v0_apply, val_main_c_apply,
    val_main_v8_apply, val_main_v7_apply, val_main_v6_apply, val_main_cst_3_apply, val_main_v5_apply,
    val_main_v4_apply, val_main_call0_v4_apply, val_main_call0_v3_apply, val_main_cst_2_apply,
    val_main_call0_v2_apply, val_main_call0_v1_apply, val_main_call0_v0_apply, val_main_cst_1_apply,
    val_main_v3_apply, val_main_v1_apply, val_main_v0_apply, val_main_cst_apply, val_main_v2_apply,
    val_main_cst_0_apply]
  show IntOp.minsi 63#32 (IntOp.maxsi 0#32 (Ideal.fptosi 32
    (min (Ideal.ofBits .f32 0x3F800000#32) (max (Ideal.ofBits .f32 0x00000000#32)
      (Ideal.div (x0 (idx_main_v5 p) - Ideal.ofBits .f32 0x00000000#32) (Ideal.ofBits .f32 0x3F800000#32)))
      * Ideal.ofBits .f32 0x42800000#32))) = _
  rw [Cert.Hist.f32_zero, Cert.Hist.f32_one, Cert.Hist.sub_zero_div_one]
  rfl

/-- The word the index vector holds for the update at row `a`, place `k`: its bin plus `64 · a`. -/
theorem v19_apply (h : S32x3x512x512.ShapeCasts Cert.Hist.Rows)
    (x0 : (⟨S32x3x512x512, .f32⟩ : BufTy).Contents (Elt Ideal)) (a : Fin 96) (k : Fin 262144)
    (hlt : a.val * 262144 + k.val < 25165824) :
    val_main_v19 (F := Ideal) x0 (ix2 ⟨a.val * 262144 + k.val, hlt⟩ 0)
      = IntOp.addi (Cert.Hist.binOf (shapeCast Cert.Hist.Rows x0 h (ix2 a k)))
          (IntOp.muli (BitVec.ofNat 32 a.val) 64#32) := by
  have hk : k.val < 262144 := k.isLt
  have hq : idx_main_v16 (idx_main_v19 (ix2 (n1 := 1) ⟨a.val * 262144 + k.val, hlt⟩ 0)) = ix2 a k := by
    funext c
    match c with
    | ⟨0, _⟩ => exact Fin.ext (show (a.val * 262144 + k.val) / 262144 = a.val by omega)
    | ⟨1, _⟩ => exact Fin.ext (show (a.val * 262144 + k.val) % 262144 = k.val by omega)
  rw [val_main_v19_apply, val_main_v16_apply, hq, val_main_v15_apply, v9_apply h, val_main_v14_apply,
    val_main_v13_apply, val_main_v12_apply, val_main_v10_apply, val_main_v11_apply, val_main_c_5_apply]

/-- The reference's histogram of the first input is the specification's counts of it. -/
theorem counts_fake (h : S32x3x512x512.ShapeCasts Cert.Hist.Rows)
    (x0 : (⟨S32x3x512x512, .f32⟩ : BufTy).Contents (Elt Ideal)) :
    val_main_v21 (F := Ideal) x0 = Cert.Hist.counts (shapeCast Cert.Hist.Rows x0 h) := by
  funext i
  obtain ⟨r, b, rfl⟩ : ∃ r b, i = ix2 r b := ⟨i 0, i 1, eq_ix2 i⟩
  have hrb : r.val * 64 + b.val < 6144 := by have := r.isLt; have := b.isLt; omega
  rw [val_main_v21_apply, show idx_main_v21 (ix2 r b) = ix1 ⟨r.val * 64 + b.val, hrb⟩ from
    funext fun a => match a with | ⟨0, _⟩ => rfl]
  unfold val_main_v20
  refine (scatterAdd_apply _ _ _ _ _).trans ?_
  have h18 : val_main_v18 (F := Ideal) (ix1 ⟨r.val * 64 + b.val, hrb⟩) = (0 : EReal) := by
    rw [val_main_v18_apply, val_main_cst_7_apply]; exact Cert.Hist.f32_zero
  have h17 : ∀ j, val_main_v17 (F := Ideal) j = (1 : EReal) := fun j => by
    rw [val_main_v17_apply, val_main_cst_6_apply]; exact Cert.Hist.f32_one
  refine (congrArg₂ (· + ·) h18 (Finset.sum_congr rfl fun j _ => h17 j)).trans ?_
  rw [zero_add]
  exact sum_hits (fun p => Cert.Hist.binOf (shapeCast Cert.Hist.Rows x0 h p)) (fun p => binOf_bounds _)
    (val_main_v19 (F := Ideal) x0) (fun a k hlt => v19_apply h x0 a k hlt) r b hrb

/-! ## The second input: the same operations under other names -/

/-- The reference's clamped integer bin at row `p 0`, place `p 1` is the bin of the input's value there: the two
    constants are zero and one, and `(y − 0) / 1 = y`. -/
theorem v37_apply (h : S32x3x512x512.ShapeCasts Cert.Hist.Rows)
    (x1 : (⟨S32x3x512x512, .f32⟩ : BufTy).Contents (Elt Ideal)) (p : S96x262144.Idx) :
    val_main_v37 (F := Ideal) x1 p = Cert.Hist.binOf (shapeCast Cert.Hist.Rows x1 h p) := by
  have hx : shapeCast Cert.Hist.Rows x1 h p = x1 (idx_main_v33 p) :=
    shapeCast_apply x1 h p (idx_main_v33 p)
      (by rewrite [Shape.rowMajor_val_four, Shape.rowMajor_val_two]; have h0 : (p 0).val < 96 := (p 0).isLt; have h1 : (p 1).val < 262144 := (p 1).isLt; show ((((p 0).val * 262144 + (p 1).val) / 786432 * 3 + ((p 0).val * 262144 + (p 1).val) / 262144 % 3) * 512 + ((p 0).val * 262144 + (p 1).val) / 512 % 512) * 512 + ((p 0).val * 262144 + (p 1).val) % 512 = (p 0).val * 262144 + (p 1).val; omega)
  rw [hx, val_main_v37_apply, val_main_call4_v4_apply, val_main_call4_v3_apply, val_main_c_16_apply,
    val_main_call4_v2_apply, val_main_call4_v1_apply, val_main_call4_v0_apply, val_main_c_15_apply,
    val_main_v36_apply, val_main_v35_apply, val_main_v34_apply, val_main_cst_14_apply, val_main_v33_apply,
    val_main_v32_apply, val_main_call3_v4_apply, val_main_call3_v3_apply, val_main_cst_13_apply,
    val_main_call3_v2_apply, val_main_call3_v1_apply, val_main_call3_v0_apply, val_main_cst_12_apply,
    val_main_v31_apply, val_main_v29_apply, val_main_v28_apply, val_main_cst_10_apply, val_main_v30_apply,
    val_main_cst_11_apply]
  show IntOp.minsi 63#32 (IntOp.maxsi 0#32 (Ideal.fptosi 32
    (min (Ideal.ofBits .f32 0x3F800000#32) (max (Ideal.ofBits .f32 0x00000000#32)
      (Ideal.div (x1 (idx_main_v33 p) - Ideal.ofBits .f32 0x00000000#32) (Ideal.ofBits .f32 0x3F800000#32)))
      * Ideal.ofBits .f32 0x42800000#32))) = _
  rw [Cert.Hist.f32_zero, Cert.Hist.f32_one, Cert.Hist.sub_zero_div_one]
  rfl

/-- The word the index vector holds for the update at row `a`, place `k`: its bin plus `64 · a`. -/
theorem v47_apply (h : S32x3x512x512.ShapeCasts Cert.Hist.Rows)
    (x1 : (⟨S32x3x512x512, .f32⟩ : BufTy).Contents (Elt Ideal)) (a : Fin 96) (k : Fin 262144)
    (hlt : a.val * 262144 + k.val < 25165824) :
    val_main_v47 (F := Ideal) x1 (ix2 ⟨a.val * 262144 + k.val, hlt⟩ 0)
      = IntOp.addi (Cert.Hist.binOf (shapeCast Cert.Hist.Rows x1 h (ix2 a k)))
          (IntOp.muli (BitVec.ofNat 32 a.val) 64#32) := by
  have hk : k.val < 262144 := k.isLt
  have hq : idx_main_v44 (idx_main_v47 (ix2 (n1 := 1) ⟨a.val * 262144 + k.val, hlt⟩ 0)) = ix2 a k := by
    funext c
    match c with
    | ⟨0, _⟩ => exact Fin.ext (show (a.val * 262144 + k.val) / 262144 = a.val by omega)
    | ⟨1, _⟩ => exact Fin.ext (show (a.val * 262144 + k.val) % 262144 = k.val by omega)
  rw [val_main_v47_apply, val_main_v44_apply, hq, val_main_v43_apply, v37_apply h, val_main_v42_apply,
    val_main_v41_apply, val_main_v40_apply, val_main_v38_apply, val_main_v39_apply, val_main_c_17_apply]

/-- The reference's histogram of the second input is the specification's counts of it. -/
theorem counts_real (h : S32x3x512x512.ShapeCasts Cert.Hist.Rows)
    (x1 : (⟨S32x3x512x512, .f32⟩ : BufTy).Contents (Elt Ideal)) :
    val_main_v49 (F := Ideal) x1 = Cert.Hist.counts (shapeCast Cert.Hist.Rows x1 h) := by
  funext i
  obtain ⟨r, b, rfl⟩ : ∃ r b, i = ix2 r b := ⟨i 0, i 1, eq_ix2 i⟩
  have hrb : r.val * 64 + b.val < 6144 := by have := r.isLt; have := b.isLt; omega
  rw [val_main_v49_apply, show idx_main_v49 (ix2 r b) = ix1 ⟨r.val * 64 + b.val, hrb⟩ from
    funext fun a => match a with | ⟨0, _⟩ => rfl]
  unfold val_main_v48
  refine (scatterAdd_apply _ _ _ _ _).trans ?_
  have h46 : val_main_v46 (F := Ideal) (ix1 ⟨r.val * 64 + b.val, hrb⟩) = (0 : EReal) := by
    rw [val_main_v46_apply, val_main_cst_19_apply]; exact Cert.Hist.f32_zero
  have h45 : ∀ j, val_main_v45 (F := Ideal) j = (1 : EReal) := fun j => by
    rw [val_main_v45_apply, val_main_cst_18_apply]; exact Cert.Hist.f32_one
  refine (congrArg₂ (· + ·) h46 (Finset.sum_congr rfl fun j _ => h45 j)).trans ?_
  rw [zero_add]
  exact sum_hits (fun p => Cert.Hist.binOf (shapeCast Cert.Hist.Rows x1 h p)) (fun p => binOf_bounds _)
    (val_main_v47 (F := Ideal) x1) (fun a k hlt => v47_apply h x1 a k hlt) r b hrb

end Cert.Hist.Ref

end
-- ==== Proof.RefTail.lean ====
/-
  From the two histograms to the loss, on the reference program.

  The reference normalises each 96 × 64 histogram by its row totals (clamped below by a small constant),
  views both as 32 × 3 × 64, subtracts, takes absolute values, sums everything and divides by 6144.
  The view 32 × 3 × 64 of 96 × 64 is a bijection of index sets (row = 3·a + b), so the total sum over
  the 32 × 3 × 64 indices is the total sum over the 96 × 64 indices: a re-indexing in a commutative monoid.
-/
import proofs.«137937_j26886495272980_2_alg».proof.Proof.Spec
import proofs.«137937_j26886495272980_2_alg».proof.Proof.Gen.ReferenceIdeal.Read

noncomputable section

namespace Cert.Hist.Ref

open Cert.ReferenceIdeal Cert.ReferenceIdeal.Read Idealize.ShloMosaic Idealize.ShloMosaic.ValueIdx

variable [Cert.ReferenceIdeal.Facts]

/-- The index (a, b, j) of the 32 × 3 × 64 view sits at row 3·a + b, column j of the 96 × 64 array, and every
    (r, j) comes from exactly one (a, b, j), namely (r / 3, r % 3, j). -/
def viewEquiv : S32x3x64.Idx ≃ Cert.Hist.Bins.Idx where
  toFun := idx_main_v27
  invFun j := ix3 (⟨(j 0).val / 3, by have := idx2_lt0 j; omega⟩ : Fin 32) (⟨(j 0).val % 3, by omega⟩ : Fin 3) (j 1)
  left_inv i := by
    have h0 : (i 0).val < 32 := (i 0).isLt
    have h1 : (i 1).val < 3 := (i 1).isLt
    have h2 : (i 2).val < 64 := (i 2).isLt
    funext a
    match a with
    | ⟨0, _⟩ => exact Fin.ext (by show ((((i 0).val * 3 + (i 1).val) * 64 + (i 2).val) / 64) / 3 = (i 0).val; omega)
    | ⟨1, _⟩ => exact Fin.ext (by show ((((i 0).val * 3 + (i 1).val) * 64 + (i 2).val) / 64) % 3 = (i 1).val; omega)
    | ⟨2, _⟩ => exact Fin.ext (by show (((i 0).val * 3 + (i 1).val) * 64 + (i 2).val) % 64 = (i 2).val; omega)
  right_inv j := by
    have h0 : (j 0).val < 96 := idx2_lt0 j
    have h1 : (j 1).val < 64 := idx2_lt1 j
    funext a
    match a with
    | ⟨0, _⟩ => exact Fin.ext (by show ((((j 0).val / 3) * 3 + (j 0).val % 3) * 64 + (j 1).val) / 64 = (j 0).val; omega)
    | ⟨1, _⟩ => exact Fin.ext (by show ((((j 0).val / 3) * 3 + (j 0).val % 3) * 64 + (j 1).val) % 64 = (j 1).val; omega)

/-- The first input's normalised histogram is the specification's `rowNorm` of its counts. -/
theorem norm_fake (x0 : (⟨S32x3x512x512, .f32⟩ : BufTy).Contents (Elt Ideal)) (cf : Cert.Hist.Bins.Idx → EReal)
    (hf : val_main_v21 (F := Ideal) x0 = cf) (j : S96x64.Idx) :
    val_main_v26 (F := Ideal) x0 j = Cert.Hist.rowNorm cf j := by
  rw [val_main_v26_apply, val_main_v25_apply, val_main_v24_apply, val_main_call2_v1_apply, val_main_call2_v0_apply, val_main_cst_9_apply,
    val_main_v23_apply, val_main_v22_apply, val_main_cst_8_apply, hf]
  simp only [Ideal.hostDivf_def, Ideal.maximumf_def, Ideal.ofBits_def, Cert.Hist.f32_zero, zero_add]
  unfold Cert.Hist.rowNorm
  refine congrArg (fun s => Ideal.div _ (max _ s)) (Finset.sum_congr rfl fun k _ => ?_)
  exact congrArg _ (funext fun a => by match a with | ⟨0, _⟩ => rfl | ⟨1, _⟩ => rfl)

/-- The second input's likewise. -/
theorem norm_real (x1 : (⟨S32x3x512x512, .f32⟩ : BufTy).Contents (Elt Ideal)) (cr : Cert.Hist.Bins.Idx → EReal)
    (hr : val_main_v49 (F := Ideal) x1 = cr) (j : S96x64.Idx) :
    val_main_v54 (F := Ideal) x1 j = Cert.Hist.rowNorm cr j := by
  rw [val_main_v54_apply, val_main_v53_apply, val_main_v52_apply, val_main_call5_v1_apply, val_main_call5_v0_apply, val_main_cst_21_apply,
    val_main_v51_apply, val_main_v50_apply, val_main_cst_20_apply, hr]
  simp only [Ideal.hostDivf_def, Ideal.maximumf_def, Ideal.ofBits_def, Cert.Hist.f32_zero, zero_add]
  unfold Cert.Hist.rowNorm
  refine congrArg (fun s => Ideal.div _ (max _ s)) (Finset.sum_congr rfl fun k _ => ?_)
  exact congrArg _ (funext fun a => by match a with | ⟨0, _⟩ => rfl | ⟨1, _⟩ => rfl)

/-- One term of the loss's sum: the absolute difference of the two normalised histograms at an index. -/
def absDiff (cf cr : Cert.Hist.Bins.Idx → EReal) (i : Cert.Hist.Bins.Idx) : EReal :=
  max (Cert.Hist.rowNorm cf i - Cert.Hist.rowNorm cr i) (-(Cert.Hist.rowNorm cf i - Cert.Hist.rowNorm cr i))

/-- The reference's result is the specification's loss of the two histograms. -/
theorem tail_eq (x0 x1 : (⟨S32x3x512x512, .f32⟩ : BufTy).Contents (Elt Ideal)) (cf cr : Cert.Hist.Bins.Idx → EReal)
    (hf : val_main_v21 (F := Ideal) x0 = cf) (hr : val_main_v49 (F := Ideal) x1 = cr) :
    val_main_v59 (F := Ideal) x0 x1 = fun _ => Cert.Hist.loss cf cr := by
  funext i
  rw [val_main_v59_apply, val_main_v58_apply, val_main_cst_22_apply, val_main_cst_23_apply]
  simp only [Ideal.hostDivf_def, Ideal.ofBits_def, Cert.Hist.f32_zero, zero_add]
  have hsum : ∑ j : S32x3x64.Idx, val_main_v57 (F := Ideal) x0 x1 j
      = ∑ i : Cert.Hist.Bins.Idx, absDiff cf cr i := by
    refine Fintype.sum_equiv viewEquiv (fun j => val_main_v57 (F := Ideal) x0 x1 j) (absDiff cf cr) fun j => ?_
    rw [val_main_v57_apply, val_main_v56_apply, val_main_v27_apply, val_main_v55_apply,
      norm_fake x0 cf hf, norm_real x1 cr hr]
    rfl
  rw [hsum]
  rfl

end Cert.Hist.Ref

end
-- ==== Proof.lean ====
/-
  The certificate of the 64-bin histogram loss: the kernel program against its reference program.

  Both programs take two inputs f32[32, 3, 512, 512], flatten each to 96 rows of 262144 values, send every
  value to one of 64 bins (clamp to [0, 1], scale by 64, truncate, clamp to 0 … 63), count per row how many
  values fall in each bin, divide each row of counts by the larger of a small constant and the row's total, and
  return the mean absolute difference of the two normalised histograms (Proof/Spec.lean: `counts`, `rowNorm`,
  `loss`).

  The kernel counts tile by tile: for each of 64 tiles of 4096 values and each bin it multiplies the tile's 0/1
  mask by a block of ones and adds the product's first column into a 48 × 64 histogram it carries from tile to
  tile (Proof/Tile.lean, Proof/TileValue.lean, Proof/Pieces.lean, Proof/KernelCounts.lean); the reference adds a
  one at position 64 · row + bin for every value (Proof/RefCounts.lean).  At the ideal values both are the same
  sums of ones and zeros, re-bracketed; the only arithmetic difference before the counting, `(x − 0) · 1` against
  `(x − 0) / 1`, is no difference on any extended real.  The normalisation and the mean are the same host
  operations on both sides, up to one reshape of the index set the last sum runs over (Proof/KernelTail.lean,
  Proof/RefTail.lean).  The precondition (finite inputs) is not needed.

  The three frames are the generated ones (the reference's is its generated run with the result dropped); the
  idealization rewrote nothing, so `preserves` is `True`.
-/
import proofs.«137937_j26886495272980_2_alg».proof.Defs
import proofs.«137937_j26886495272980_2_alg».proof.Proof.Gen.Kernel
import proofs.«137937_j26886495272980_2_alg».proof.Proof.Gen.Kernel.Frame
import proofs.«137937_j26886495272980_2_alg».proof.Proof.Gen.KernelIdeal
import proofs.«137937_j26886495272980_2_alg».proof.Proof.Gen.KernelIdeal.Frame
import proofs.«137937_j26886495272980_2_alg».proof.Proof.Gen.ReferenceIdeal
import proofs.«137937_j26886495272980_2_alg».proof.Proof.Gen.ReferenceIdeal.Run
import proofs.«137937_j26886495272980_2_alg».proof.Proof.Gen.ReferenceIdeal.Read
import proofs.«137937_j26886495272980_2_alg».proof.Proof.Gen.Pre_finite_inputs
import proofs.«137937_j26886495272980_2_alg».proof.Proof.KernelRun
import proofs.«137937_j26886495272980_2_alg».proof.Proof.RefCounts
import proofs.«137937_j26886495272980_2_alg».proof.Proof.RefTail
import Idealize.ShloMosaic.Adequacy
import Idealize.ShloMosaic.Init

noncomputable section

namespace Cert.Proof

open Idealize.ShloMosaic Idealize.ShloMosaic.TcCoe Idealize.SL.Sem

/-- The reference's result term is the loss of the counts of its two flattened arguments. -/
theorem reference_result (x0 x1 : (⟨Cert.ReferenceIdeal.S32x3x512x512, .f32⟩ : BufTy).Contents (Elt Ideal))
    (h : Cert.ReferenceIdeal.S32x3x512x512.ShapeCasts Cert.Hist.Rows) :
    Cert.ReferenceIdeal.Read.val_main_v59 (F := Ideal) x0 x1
      = fun _ => Cert.Hist.loss (Cert.Hist.counts (shapeCast Cert.Hist.Rows x0 h)) (Cert.Hist.counts (shapeCast Cert.Hist.Rows x1 h)) :=
  Cert.Hist.Ref.tail_eq x0 x1 _ _ (Cert.Hist.Ref.counts_fake h x0) (Cert.Hist.Ref.counts_real h x1)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result (the frame run read through the counts and the host tail) and the
    reference's (its generated run read through the scatter-add and the same tail) are the loss of the same counts
    of arguments that agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, (hagree c).1, (hagree c).2]
  exact reference_result _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
